-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_arg10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x256 : Shape := ⟨3, ![1024, 64, 256]⟩
abbrev S1024x64x64 : Shape := ⟨3, ![1024, 64, 64]⟩
abbrev S256x256 : Shape := ⟨2, ![256, 256]⟩
abbrev S256 : Shape := ⟨1, ![256]⟩
abbrev S1x8x64x64 : Shape := ⟨4, ![1, 8, 64, 64]⟩
abbrev S_ : Shape := ⟨0, ![]⟩

class Facts : Prop where
  bcast_S_S1024x64x256 : S_.BroadcastsInDim S1024x64x256 (![] : Fin 0 → Fin S1024x64x256.rank)
  reducesTo_S1024x64x256_S_d0_1_2 : S1024x64x256.ReducesTo [0, 1, 2] S_
  h_S_ : 0 < S_.numel
  bcast_S_S1024x64x64 : S_.BroadcastsInDim S1024x64x64 (![] : Fin 0 → Fin S1024x64x64.rank)
  reducesTo_S1024x64x64_S_d0_1_2 : S1024x64x64.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x8x64x64 : S_.BroadcastsInDim S1x8x64x64 (![] : Fin 0 → Fin S1x8x64x64.rank)
  reducesTo_S1x8x64x64_S_d0_1_2_3 : S1x8x64x64.ReducesTo [0, 1, 2, 3] S_

variable [Facts]

def fn_part3 {F : FTy → Type} [FloatOps F] (main_v48 : IVec S_ 1) (main_v49 : FVec F S1x8x64x64 .f32) (main_v50 : FVec F S1x8x64x64 .f32) : IVec S_ 1 :=
  let main_v51 : IVec S1x8x64x64 1 := cmpf .olt main_v49 main_v50
  let main_c_19 : IVec S_ 1 := constantI S_ 1 1#1
  let main_v52 : IVec S_ 1 := (fun x v => Host.reduce IntOp.andi x v reducesTo_S1x8x64x64_S_d0_1_2_3 h_S_) main_v51 main_c_19
  let main_v53 : IVec S_ 1 := andi main_v48 main_v52
  main_v53

def fn_part2 {F : FTy → Type} [FloatOps F] (main_arg7 : FVec F S256 .f32) (main_arg8 : FVec F S256x256 .f32) (main_arg9 : FVec F S256 .f32) (main_arg10 : FVec F S1x8x64x64 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S1x8x64x64 .f32 := Host.absf main_arg10
  let main_cst_18 : FVec F S_ .f32 := constant S_ .f32 0x7F800000#32
  let main_v50 : FVec F S1x8x64x64 .f32 := broadcastInDim S1x8x64x64 ![] bcast_S_S1x8x64x64 main_cst_18
  fn_part3 (F := F) main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S1x8x64x64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S1024x64x256 .f32) (main_arg1 : FVec F S1024x64x64 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S1x8x64x64 .f32) : IVec S_ 1 :=
  let main_v0 : FVec F S1024x64x256 .f32 := Host.absf main_arg0
  let main_cst : FVec F S_ .f32 := constant S_ .f32 0x7F800000#32
  let main_v1 : FVec F S1024x64x256 .f32 := broadcastInDim S1024x64x256 ![] bcast_S_S1024x64x256 main_cst
  let main_v2 : IVec S1024x64x256 1 := cmpf .olt main_v0 main_v1
  let main_c : IVec S_ 1 := constantI S_ 1 1#1
  let main_v3 : IVec S_ 1 := (fun x v => Host.reduce IntOp.andi x v reducesTo_S1024x64x256_S_d0_1_2 h_S_) main_v2 main_c
  let main_v4 : FVec F S1024x64x64 .f32 := Host.absf main_arg1
  let main_cst_0 : FVec F S_ .f32 := constant S_ .f32 0x7F800000#32
  let main_v5 : FVec F S1024x64x64 .f32 := broadcastInDim S1024x64x64 ![] bcast_S_S1024x64x64 main_cst_0
  let main_v6 : IVec S1024x64x64 1 := cmpf .olt main_v4 main_v5
  let main_c_1 : IVec S_ 1 := constantI S_ 1 1#1
  let main_v7 : IVec S_ 1 := (fun x v => Host.reduce IntOp.andi x v reducesTo_S1024x64x64_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_v13 main_v16
-- ==== Kernel.lean ====
abbrev S1024x64x256 : Shape := ⟨3, ![1024, 64, 256]⟩
abbrev S1024x64x64 : Shape := ⟨3, ![1024, 64, 64]⟩
abbrev S256x256 : Shape := ⟨2, ![256, 256]⟩
abbrev S256 : Shape := ⟨1, ![256]⟩
abbrev S1x8x64x64 : Shape := ⟨4, ![1, 8, 64, 64]⟩
abbrev S1024x8x64x64 : Shape := ⟨4, ![1024, 8, 64, 64]⟩
abbrev S32x64x256 : Shape := ⟨3, ![32, 64, 256]⟩
abbrev S32x64x64 : Shape := ⟨3, ![32, 64, 64]⟩
abbrev S32x8x64x64 : Shape := ⟨4, ![32, 8, 64, 64]⟩
abbrev S2048x256 : Shape := ⟨2, ![2048, 256]⟩
abbrev S1x256 : Shape := ⟨2, ![1, 256]⟩
abbrev S32x64x32 : Shape := ⟨3, ![32, 64, 32]⟩
abbrev S1x1x64x64 : Shape := ⟨4, ![1, 1, 64, 64]⟩
abbrev S64x64 : Shape := ⟨2, ![64, 64]⟩
abbrev S1x64x64 : Shape := ⟨3, ![1, 64, 64]⟩
abbrev S32x64 : Shape := ⟨2, ![32, 64]⟩
abbrev S32x64x1 : Shape := ⟨3, ![32, 64, 1]⟩
abbrev S32x1x64x64 : Shape := ⟨4, ![32, 1, 64, 64]⟩

abbrev nBuf : Space → Nat
  | .hbm => 13
  | .vmem => 17
  | .smem => 0
  | _ => 0

abbrev bufTy : (tb : Table) → Fin (tcTables nBuf tb) → BufTy
  | .hbm, ⟨0, _⟩ => ⟨S1024x64x256, .f32⟩
  | .hbm, ⟨1, _⟩ => ⟨S1024x64x64, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S1x8x64x64, .f32⟩
  | .hbm, ⟨11, _⟩ => ⟨S1024x64x256, .f32⟩
  | .hbm, ⟨12, _⟩ => ⟨S1024x8x64x64, .f32⟩
  | .local _ .vmem, ⟨0, _⟩ => ⟨S32x64x256, .f32⟩
  | .local _ .vmem, ⟨1, _⟩ => ⟨S32x64x256, .f32⟩
  | .local _ .vmem, ⟨2, _⟩ => ⟨S32x64x64, .f32⟩
  | .local _ .vmem, ⟨3, _⟩ => ⟨S32x64x64, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S1x8x64x64, .f32⟩
  | .local _ .vmem, ⟨13, _⟩ => ⟨S32x64x256, .f32⟩
  | .local _ .vmem, ⟨14, _⟩ => ⟨S32x64x256, .f32⟩
  | .local _ .vmem, ⟨15, _⟩ => ⟨S32x8x64x64, .f32⟩
  | .local _ .vmem, ⟨16, _⟩ => ⟨S32x8x64x64, .f32⟩
  | _, _ => ⟨S1024x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x8x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  inb_S32x64x256_S32x64x256_0_0_0 : ∀ a, (![0, 0, 0] : Fin 3 → Nat) a + S32x64x256.size a ≤ S32x64x256.size a
  h_S32x64x256 : 0 < S32x64x256.numel
  shapeCasts_S32x64x256_S2048x256 : S32x64x256.ShapeCasts S2048x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  transposes_S256x256_p1_0_S256x256 : S256x256.Transposes [1, 0] S256x256
  shapeCasts_S256_S1x256 : S256.ShapeCasts S1x256
  broadcasts_S1x256_S2048x256 : S1x256.Broadcasts S2048x256
  shapeCasts_S2048x256_S32x64x256 : S2048x256.ShapeCasts S32x64x256
  inb_S32x64x64_S32x64x64_0_0_0 : ∀ a, (![0, 0, 0] : Fin 3 → Nat) a + S32x64x64.size a ≤ S32x64x64.size a
  h_S32x64x64 : 0 < S32x64x64.numel
  slices_S32x64x256_o0_0_0_S32x64x32 : S32x64x256.Slices ![0, 0, 0] S32x64x32
  inb_S1x8x64x64_S1x1x64x64_0_0_0_0 : ∀ a, (![0, 0, 0, 0] : Fin 4 → Nat) a + S1x1x64x64.size a ≤ S1x8x64x64.size a
  h_S1x1x64x64 : 0 < S1x1x64x64.numel
  shapeCasts_S1x1x64x64_S64x64 : S1x1x64x64.ShapeCasts S64x64
  shapeCasts_S64x64_S1x64x64 : S64x64.ShapeCasts S1x64x64
  broadcasts_S1x64x64_S32x64x64 : S1x64x64.Broadcasts S32x64x64
  reduces_S32x64x64_S32x64 : S32x64x64.Reduces [2] S32x64
  shapeCasts_S32x64_S32x64x1 : S32x64.ShapeCasts S32x64x1
  broadcasts_S32x64x1_S32x64x64 : S32x64x1.Broadcasts S32x64x64
  inb_S32x8x64x64_S32x1x64x64_0_0_0_0 : ∀ a, (![0, 0, 0, 0] : Fin 4 → Nat) a + S32x1x64x64.size a ≤ S32x8x64x64.size a
  h_S32x1x64x64 : 0 < S32x1x64x64.numel
  shapeCasts_S32x1x64x64_S32x64x64 : S32x1x64x64.ShapeCasts S32x64x64
  shapeCasts_S32x64x64_S32x1x64x64 : S32x64x64.ShapeCasts S32x1x64x64
  slices_S32x64x256_o0_0_32_S32x64x32 : S32x64x256.Slices ![0, 0, 32] S32x64x32
  inb_S1x8x64x64_S1x1x64x64_0_1_0_0 : ∀ a, (![0, 1, 0, 0] : Fin 4 → Nat) a + S1x1x64x64.size a ≤ S1x8x64x64.size a
  inb_S32x8x64x64_S32x1x64x64_0_1_0_0 : ∀ a, (![0, 1, 0, 0] : Fin 4 → Nat) a + S32x1x64x64.size a ≤ S32x8x64x64.size a
  slices_S32x64x256_o0_0_64_S32x64x32 : S32x64x256.Slices ![0, 0, 64] S32x64x32
  inb_S1x8x64x64_S1x1x64x64_0_2_0_0 : ∀ a, (![0, 2, 0, 0] : Fin 4 → Nat) a + S1x1x64x64.size a ≤ S1x8x64x64.size a
  inb_S32x8x64x64_S32x1x64x64_0_2_0_0 : ∀ a, (![0, 2, 0, 0] : Fin 4 → Nat) a + S32x1x64x64.size a ≤ S32x8x64x64.size a
  slices_S32x64x256_o0_0_96_S32x64x32 : S32x64x256.Slices ![0, 0, 96] S32x64x32
  inb_S1x8x64x64_S1x1x64x64_0_3_0_0 : ∀ a, (![0, 3, 0, 0] : Fin 4 → Nat) a + S1x1x64x64.size a ≤ S1x8x64x64.size a
  inb_S32x8x64x64_S32x1x64x64_0_3_0_0 : ∀ a, (![0, 3, 0, 0] : Fin 4 → Nat) a + S32x1x64x64.size a ≤ S32x8x64x64.size a
  slices_S32x64x256_o0_0_128_S32x64x32 : S32x64x256.Slices ![0, 0, 128] S32x64x32
  inb_S1x8x64x64_S1x1x64x64_0_4_0_0 : ∀ a, (![0, 4, 0, 0] : Fin 4 → Nat) a + S1x1x64x64.size a ≤ S1x8x64x64.size a
  inb_S32x8x64x64_S32x1x64x64_0_4_0_0 : ∀ a, (![0, 4, 0, 0] : Fin 4 → Nat) a + S32x1x64x64.size a ≤ S32x8x64x64.size a
  slices_S32x64x256_o0_0_160_S32x64x32 : S32x64x256.Slices ![0, 0, 160] S32x64x32
  inb_S1x8x64x64_S1x1x64x64_0_5_0_0 : ∀ a, (![0, 5, 0, 0] : Fin 4 → Nat) a + S1x1x64x64.size a ≤ S1x8x64x64.size a
  inb_S32x8x64x64_S32x1x64x64_0_5_0_0 : ∀ a, (![0, 5, 0, 0] : Fin 4 → Nat) a + S32x1x64x64.size a ≤ S32x8x64x64.size a
  slices_S32x64x256_o0_0_192_S32x64x32 : S32x64x256.Slices ![0, 0, 192] S32x64x32
  inb_S1x8x64x64_S1x1x64x64_0_6_0_0 : ∀ a, (![0, 6, 0, 0] : Fin 4 → Nat) a + S1x1x64x64.size a ≤ S1x8x64x64.size a
  inb_S32x8x64x64_S32x1x64x64_0_6_0_0 : ∀ a, (![0, 6, 0, 0] : Fin 4 → Nat) a + S32x1x64x64.size a ≤ S32x8x64x64.size a
  slices_S32x64x256_o0_0_224_S32x64x32 : S32x64x256.Slices ![0, 0, 224] S32x64x32
  inb_S1x8x64x64_S1x1x64x64_0_7_0_0 : ∀ a, (![0, 7, 0, 0] : Fin 4 → Nat) a + S1x1x64x64.size a ≤ S1x8x64x64.size a
  inb_S32x8x64x64_S32x1x64x64_0_7_0_0 : ∀ a, (![0, 7, 0, 0] : Fin 4 → Nat) a + S32x1x64x64.size a ≤ S32x8x64x64.size a
  concatenates_S32x64x32_S32x64x32_S32x64x32_S32x64x32_S32x64x32_S32x64x32_S32x64x32_S32x64x32_S32x64x256_d2 : Shape.Concatenates [S32x64x32, S32x64x32, S32x64x32, S32x64x32, S32x64x32, S32x64x32, S32x64x32, S32x64x32] S32x64x256 2
  dot_S2048x256_S256x256_S2048x256_1_0_0_1_n_n_wf : DotDims.WF S2048x256 S256x256 S2048x256 [1] [0] [0] [1] [] []
  dot_S32x64x32_S32x64x32_S32x64x64_2_2_1_1_0_0_wf : DotDims.WF S32x64x32 S32x64x32 S32x64x64 [2] [2] [1] [1] [0] [0]
  dot_S32x64x64_S32x64x32_S32x64x32_2_1_1_2_0_0_wf : DotDims.WF S32x64x64 S32x64x32 S32x64x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x256.size a ≤ S1024x64x256.size a
  hwx0_0 : ∀ i : grid0.Coords, EltTy.bits .f32 = 32 ∨ (Rect.block (s := S1024x64x256) S32x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64x64.size a ≤ S1024x64x64.size a
  hwx0_1 : ∀ i : grid0.Coords, EltTy.bits .f32 = 32 ∨ (Rect.block (s := S1024x64x64) S32x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x8x64x64.size a ≤ S1x8x64x64.size a
  hwx0_10 : ∀ i : grid0.Coords, EltTy.bits .f32 = 32 ∨ (Rect.block (s := S1x8x64x64) S1x8x64x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S32x64x256.size a ≤ S1024x64x256.size a
  hwx0_11 : ∀ i : grid0.Coords, EltTy.bits .f32 = 32 ∨ (Rect.block (s := S1024x64x256) S32x64x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S32x8x64x64.size a ≤ S1024x8x64x64.size a
  hwx0_12 : ∀ i : grid0.Coords, EltTy.bits .f32 = 32 ∨ (Rect.block (s := S1024x8x64x64) S32x8x64x64.size (cc0_transform_12 i) (hinb0_12 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S32x64x32_S32x64x32_S32x64x64_2_2_1_1_0_0 : DotDims S32x64x32 S32x64x32 S32x64x64 where
  lhsContracting := [2]
  rhsContracting := [2]
  lhsNonContracting := [1]
  rhsNonContracting := [1]
  lhsBatch := [0]
  rhsBatch := [0]
  wf := dot_S32x64x32_S32x64x32_S32x64x64_2_2_1_1_0_0_wf
def dot_S32x64x64_S32x64x32_S32x64x32_2_1_1_2_0_0 : DotDims S32x64x64 S32x64x32 S32x64x32 where
  lhsContracting := [2]
  rhsContracting := [1]
  lhsNonContracting := [1]
  rhsNonContracting := [2]
  lhsBatch := [0]
  rhsBatch := [0]
  wf := dot_S32x64x64_S32x64x32_S32x64x32_2_1_1_2_0_0_wf

abbrev win0_0 : Pipeline.Window sig grid0 :=
  Pipeline.Window.ofSpec (Memref.whole main_arg0) S32x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x8x64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_0) S32x64x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_1) S32x8x64x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S1024x64x256 : Shape := ⟨3, ![1024, 64, 256]⟩
abbrev S1024x64x64 : Shape := ⟨3, ![1024, 64, 64]⟩
abbrev S256x256 : Shape := ⟨2, ![256, 256]⟩
abbrev S256 : Shape := ⟨1, ![256]⟩
abbrev S1x8x64x64 : Shape := ⟨4, ![1, 8, 64, 64]⟩
abbrev S1x1x256 : Shape := ⟨3, ![1, 1, 256]⟩
abbrev S1024x64x8x32 : Shape := ⟨4, ![1024, 64, 8, 32]⟩
abbrev S1024x8x64x32 : Shape := ⟨4, ![1024, 8, 64, 32]⟩
abbrev S1024x8x64x64 : Shape := ⟨4, ![1024, 8, 64, 64]⟩
abbrev S_ : Shape := ⟨0, ![]⟩
abbrev S1024x1x64x64 : Shape := ⟨4, ![1024, 1, 64, 64]⟩
abbrev S1024x8x64 : Shape := ⟨3, ![1024, 8, 64]⟩
abbrev S1024x8x64x1 : Shape := ⟨4, ![1024, 8, 64, 1]⟩

abbrev nBuf : Space → Nat
  | .hbm => 73
  | .vmem => 0
  | .smem => 0
  | _ => 0

abbrev bufTy : (tb : Table) → Fin (tcTables nBuf tb) → BufTy
  | .hbm, ⟨0, _⟩ => ⟨S1024x64x256, .f32⟩
  | .hbm, ⟨1, _⟩ => ⟨S1024x64x64, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S1x8x64x64, .f32⟩
  | .hbm, ⟨11, _⟩ => ⟨S1024x64x256, .f32⟩
  | .hbm, ⟨12, _⟩ => ⟨S1x1x256, .f32⟩
  | .hbm, ⟨13, _⟩ => ⟨S1024x64x256, .f32⟩
  | .hbm, ⟨14, _⟩ => ⟨S1024x64x256, .f32⟩
  | .hbm, ⟨15, _⟩ => ⟨S1024x64x8x32, .f32⟩
  | .hbm, ⟨16, _⟩ => ⟨S1024x8x64x32, .f32⟩
  | .hbm, ⟨17, _⟩ => ⟨S1024x64x256, .f32⟩
  | .hbm, ⟨18, _⟩ => ⟨S1x1x256, .f32⟩
  | .hbm, ⟨19, _⟩ => ⟨S1024x64x256, .f32⟩
  | .hbm, ⟨20, _⟩ => ⟨S1024x64x256, .f32⟩
  | .hbm, ⟨21, _⟩ => ⟨S1024x64x8x32, .f32⟩
  | .hbm, ⟨22, _⟩ => ⟨S1024x8x64x32, .f32⟩
  | .hbm, ⟨23, _⟩ => ⟨S1024x64x256, .f32⟩
  | .hbm, ⟨24, _⟩ => ⟨S1x1x256, .f32⟩
  | .hbm, ⟨25, _⟩ => ⟨S1024x64x256, .f32⟩
  | .hbm, ⟨26, _⟩ => ⟨S1024x64x256, .f32⟩
  | .hbm, ⟨27, _⟩ => ⟨S1024x64x8x32, .f32⟩
  | .hbm, ⟨28, _⟩ => ⟨S1024x8x64x32, .f32⟩
  | .hbm, ⟨29, _⟩ => ⟨S1024x8x64x64, .f32⟩
  | .hbm, ⟨30, _⟩ => ⟨S_, .f32⟩
  | .hbm, ⟨31, _⟩ => ⟨S1024x8x64x64, .f32⟩
  | .hbm, ⟨32, _⟩ => ⟨S1024x8x64x64, .f32⟩
  | .hbm, ⟨33, _⟩ => ⟨S1x8x64x64, .f32⟩
  | .hbm, ⟨34, _⟩ => ⟨S1x8x64x64, .f32⟩
  | .hbm, ⟨35, _⟩ => ⟨S_, .f32⟩
  | .hbm, ⟨36, _⟩ => ⟨S1x8x64x64, .f32⟩
  | .hbm, ⟨37, _⟩ => ⟨S1x8x64x64, .f32⟩
  | .hbm, ⟨38, _⟩ => ⟨S_, .f32⟩
  | .hbm, ⟨39, _⟩ => ⟨S1x8x64x64, .f32⟩
  | .hbm, ⟨40, _⟩ => ⟨S1x8x64x64, .f32⟩
  | .hbm, ⟨41, _⟩ => ⟨S1024x8x64x64, .f32⟩
  | .hbm, ⟨42, _⟩ => ⟨S1024x8x64x64, .f32⟩
  | .hbm, ⟨43, _⟩ => ⟨S_, .f32⟩
  | .hbm, ⟨44, _⟩ => ⟨S1x8x64x64, .f32⟩
  | .hbm, ⟨45, _⟩ => ⟨S1x8x64x64, .f32⟩
  | .hbm, ⟨46, _⟩ => ⟨S1x8x64x64, .f32⟩
  | .hbm, ⟨47, _⟩ => ⟨S1024x8x64x64, .f32⟩
  | .hbm, ⟨48, _⟩ => ⟨S1024x8x64x64, .f32⟩
  | .hbm, ⟨49, _⟩ => ⟨S1024x1x64x64, .f32⟩
  | .hbm, ⟨50, _⟩ => ⟨S1024x8x64x64, .f32⟩
  | .hbm, ⟨51, _⟩ => ⟨S1024x8x64x64, .f32⟩
  | .hbm, ⟨52, _⟩ => ⟨S_, .f32⟩
  | .hbm, ⟨53, _⟩ => ⟨S1024x8x64, .f32⟩
  | .hbm, ⟨54, _⟩ => ⟨S_, .f32⟩
  | .hbm, ⟨55, _⟩ => ⟨S1024x8x64, .f32⟩
  | .hbm, ⟨56, _⟩ => ⟨S1024x8x64, .f32⟩
  | .hbm, ⟨57, _⟩ => ⟨S1024x8x64x1, .f32⟩
  | .hbm, ⟨58, _⟩ => ⟨S1024x8x64x64, .f32⟩
  | .hbm, ⟨59, _⟩ => ⟨S1024x8x64x64, .f32⟩
  | .hbm, ⟨60, _⟩ => ⟨S1024x8x64x64, .f32⟩
  | .hbm, ⟨61, _⟩ => ⟨S_, .f32⟩
  | .hbm, ⟨62, _⟩ => ⟨S1024x8x64, .f32⟩
  | .hbm, ⟨63, _⟩ => ⟨S1024x8x64x1, .f32⟩
  | .hbm, ⟨64, _⟩ => ⟨S1024x8x64x64, .f32⟩
  | .hbm, ⟨65, _⟩ => ⟨S1024x8x64x64, .f32⟩
  | .hbm, ⟨66, _⟩ => ⟨S1024x8x64x32, .f32⟩
  | .hbm, ⟨67, _⟩ => ⟨S1024x64x8x32, .f32⟩
  | .hbm, ⟨68, _⟩ => ⟨S1024x64x256, .f32⟩
  | .hbm, ⟨69, _⟩ => ⟨S1024x64x256, .f32⟩
  | .hbm, ⟨70, _⟩ => ⟨S1x1x256, .f32⟩
  | .hbm, ⟨71, _⟩ => ⟨S1024x64x256, .f32⟩
  | .hbm, ⟨72, _⟩ => ⟨S1024x64x256, .f32⟩
  | _, _ => ⟨S1024x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S1024x64x256_0_1_2 : S1x1x256.BroadcastsInDim S1024x64x256 (![0, 1, 2] : Fin 3 → Fin S1024x64x256.rank)
  shapeCasts_S1024x64x256_S1024x64x8x32 : S1024x64x256.ShapeCasts S1024x64x8x32
  transposes_S1024x64x8x32_S1024x8x64x32_0_2_1_3 : S1024x64x8x32.Transposes [0, 2, 1, 3] S1024x8x64x32
  bcast_S_S1024x8x64x64 : S_.BroadcastsInDim S1024x8x64x64 (![] : Fin 0 → Fin S1024x8x64x64.rank)
  bcast_S_S1x8x64x64 : S_.BroadcastsInDim S1x8x64x64 (![] : Fin 0 → Fin S1x8x64x64.rank)
  bcast_S1x8x64x64_S1024x8x64x64_0_1_2_3 : S1x8x64x64.BroadcastsInDim S1024x8x64x64 (![0, 1, 2, 3] : Fin 4 → Fin S1024x8x64x64.rank)
  bcast_S1024x64x64_S1024x1x64x64_0_2_3 : S1024x64x64.BroadcastsInDim S1024x1x64x64 (![0, 2, 3] : Fin 3 → Fin S1024x1x64x64.rank)
  bcast_S1024x1x64x64_S1024x8x64x64_0_1_2_3 : S1024x1x64x64.BroadcastsInDim S1024x8x64x64 (![0, 1, 2, 3] : Fin 4 → Fin S1024x8x64x64.rank)
  reducesTo_S1024x8x64x64_S1024x8x64_d3 : S1024x8x64x64.ReducesTo [3] S1024x8x64
  h_S_ : 0 < S_.numel
  bcast_S_S1024x8x64 : S_.BroadcastsInDim S1024x8x64 (![] : Fin 0 → Fin S1024x8x64.rank)
  bcast_S1024x8x64_S1024x8x64x1_0_1_2 : S1024x8x64.BroadcastsInDim S1024x8x64x1 (![0, 1, 2] : Fin 3 → Fin S1024x8x64x1.rank)
  bcast_S1024x8x64x1_S1024x8x64x64_0_1_2_3 : S1024x8x64x1.BroadcastsInDim S1024x8x64x64 (![0, 1, 2, 3] : Fin 4 → Fin S1024x8x64x64.rank)
  transposes_S1024x8x64x32_S1024x64x8x32_0_2_1_3 : S1024x8x64x32.Transposes [0, 2, 1, 3] S1024x64x8x32
  shapeCasts_S1024x64x8x32_S1024x64x256 : S1024x64x8x32.ShapeCasts S1024x64x256
  dot_S1024x64x256_S256x256_S1024x64x256_2_1_01_0_n_n_wf : DotDims.WF S1024x64x256 S256x256 S1024x64x256 [2] [1] [0, 1] [0] [] []
  dot_S1024x8x64x32_S1024x8x64x32_S1024x8x64x64_3_3_2_2_01_01_wf : DotDims.WF S1024x8x64x32 S1024x8x64x32 S1024x8x64x64 [3] [3] [2] [2] [0, 1] [0, 1]
  dot_S1024x8x64x64_S1024x8x64x32_S1024x8x64x32_3_2_2_3_01_01_wf : DotDims.WF S1024x8x64x64 S1024x8x64x32 S1024x8x64x32 [3] [2] [2] [3] [0, 1] [0, 1]

variable [Facts₀]

def dot_S1024x64x256_S256x256_S1024x64x256_2_1_01_0_n_n : DotDims S1024x64x256 S256x256 S1024x64x256 where
  lhsContracting := [2]
  rhsContracting := [1]
  lhsNonContracting := [0, 1]
  rhsNonContracting := [0]
  lhsBatch := []
  rhsBatch := []
  wf := dot_S1024x64x256_S256x256_S1024x64x256_2_1_01_0_n_n_wf
def dot_S1024x8x64x32_S1024x8x64x32_S1024x8x64x64_3_3_2_2_01_01 : DotDims S1024x8x64x32 S1024x8x64x32 S1024x8x64x64 where
  lhsContracting := [3]
  rhsContracting := [3]
  lhsNonContracting := [2]
  rhsNonContracting := [2]
  lhsBatch := [0, 1]
  rhsBatch := [0, 1]
  wf := dot_S1024x8x64x32_S1024x8x64x32_S1024x8x64x64_3_3_2_2_01_01_wf
def dot_S1024x8x64x64_S1024x8x64x32_S1024x8x64x32_3_2_2_3_01_01 : DotDims S1024x8x64x64 S1024x8x64x32 S1024x8x64x32 where
  lhsContracting := [3]
  rhsContracting := [2]
  lhsNonContracting := [2]
  rhsNonContracting := [3]
  lhsBatch := [0, 1]
  rhsBatch := [0, 1]
  wf := dot_S1024x8x64x64_S1024x8x64x32_S1024x8x64x32_3_2_2_3_01_01_wf

class Facts : Prop extends Facts₀ where

variable [Facts]
-- ==== Proof.KMat.lean ====
/-
  The kernel's three matrix products, read at one output element over the extended reals.

  Into a zero accumulator a product is the plain sum over its one contracted axis:
  * rows × columns, [2048, 256] · [256, 256]: element (r, e) is Σ_k a(r, k) · b(k, e);
  * batched "rows against rows", [32, 64, 32] · [32, 64, 32] → [32, 64, 64]: element (p, q, k) is
    Σ_d a(p, q, d) · b(p, k, d);
  * batched rows × columns, [32, 64, 64] · [32, 64, 32] → [32, 64, 32]: element (p, q, d) is
    Σ_k a(p, q, k) · b(p, k, d).
  Each proof names the two operand indices coordinate by coordinate (a batch axis and a kept axis
  copy the output's coordinate, the contracted axis carries the summation variable) and re-indexes
  the sum by that one coordinate.
-/
import proofs.«100361_j80771154969227_1_alg».proof.Proof.Gen.KernelIdeal.Skeleton
import Idealize.ShloMosaic.Lib.ValueIdx
import Idealize.ShloMosaic.PureOps.Ideal.Laws

noncomputable section

namespace Cert.Attn.K

open Cert.KernelIdeal Idealize.ShloMosaic Idealize.ShloMosaic.ValueIdx

/-! ## rows × columns -/

section Proj
local notation "D₁" => dot_S2048x256_S256x256_S2048x256_1_0_0_1_n_n

theorem proj_l0 (i : S2048x256.Idx) (q : (D₁).contr.Idx) : ((D₁).lhsIdx i q 0).val = (i 0).val := by
  unfold DotDims.lhsIdx
  rw [dif_neg (show ¬(0 : Fin S2048x256.rank) ∈ (D₁).lhsBatch by decide), dif_pos (show (0 : Fin S2048x256.rank) ∈ (D₁).lhsNonContracting by decide)]
  rfl
theorem proj_l1 (i : S2048x256.Idx) (q : (D₁).contr.Idx) : ((D₁).lhsIdx i q 1).val = (q ⟨0, by decide⟩).val :=
  (D₁).lhsIdx_val_of_single rfl i q
theorem proj_r0 (i : S2048x256.Idx) (q : (D₁).contr.Idx) : ((D₁).rhsIdx i q 0).val = (q ⟨0, by decide⟩).val :=
  (D₁).rhsIdx_val_of_single rfl i q
theorem proj_r1 (i : S2048x256.Idx) (q : (D₁).contr.Idx) : ((D₁).rhsIdx i q 1).val = (i 1).val := by
  unfold DotDims.rhsIdx
  rw [dif_neg (show ¬(1 : Fin S256x256.rank) ∈ (D₁).rhsBatch by decide), dif_pos (show (1 : Fin S256x256.rank) ∈ (D₁).rhsNonContracting by decide)]
  rfl

/-- Element (r, e) of a [2048, 256] · [256, 256] product into zero. -/
theorem projMat_apply (a : FVec Ideal S2048x256 .f32) (b : FVec Ideal S256x256 .f32) (r : Fin 2048) (e : Fin 256) :
    matmul (D₁) none a b (constant S2048x256 .f32 0x00000000#32) (ix2 r e)
      = ∑ k : Fin 256, a (ix2 r k) * b (ix2 k e) := by
  simp only [matmul]
  rw [Ideal.matmul_constant_zero_apply, ← Equiv.sum_comp (contrEquiv1 (D₁) 256 rfl rfl).symm]
  refine Finset.sum_congr rfl fun k _ => ?_
  have hk := contrEquiv1_symm_val (D₁) 256 rfl rfl k
  have el : (D₁).lhsIdx (ix2 r e) ((contrEquiv1 (D₁) 256 rfl rfl).symm k) = ix2 r k := funext fun x => Fin.ext (by
    match x with
    | ⟨0, _⟩ => exact proj_l0 _ _
    | ⟨1, _⟩ => exact (proj_l1 _ _).trans hk)
  have er : (D₁).rhsIdx (ix2 r e) ((contrEquiv1 (D₁) 256 rfl rfl).symm k) = ix2 k e := funext fun x => Fin.ext (by
    match x with
    | ⟨0, _⟩ => exact (proj_r0 _ _).trans hk
    | ⟨1, _⟩ => exact proj_r1 _ _)
  rw [el, er]
end Proj

/-! ## batched rows against rows -/

section Score
local notation "D₂" => dot_S32x64x32_S32x64x32_S32x64x64_2_2_1_1_0_0

theorem score_l0 (i : S32x64x64.Idx) (q : (D₂).contr.Idx) : ((D₂).lhsIdx i q 0).val = (i 0).val := by
  unfold DotDims.lhsIdx
  rw [dif_pos (show (0 : Fin S32x64x32.rank) ∈ (D₂).lhsBatch by decide)]
  rfl
theorem score_l1 (i : S32x64x64.Idx) (q : (D₂).contr.Idx) : ((D₂).lhsIdx i q 1).val = (i 1).val := by
  unfold DotDims.lhsIdx
  rw [dif_neg (show ¬(1 : Fin S32x64x32.rank) ∈ (D₂).lhsBatch by decide), dif_pos (show (1 : Fin S32x64x32.rank) ∈ (D₂).lhsNonContracting by decide)]
  rfl
theorem score_l2 (i : S32x64x64.Idx) (q : (D₂).contr.Idx) : ((D₂).lhsIdx i q 2).val = (q ⟨0, by decide⟩).val :=
  (D₂).lhsIdx_val_of_single rfl i q
theorem score_r0 (i : S32x64x64.Idx) (q : (D₂).contr.Idx) : ((D₂).rhsIdx i q 0).val = (i 0).val := by
  unfold DotDims.rhsIdx
  rw [dif_pos (show (0 : Fin S32x64x32.rank) ∈ (D₂).rhsBatch by decide)]
  rfl
theorem score_r1 (i : S32x64x64.Idx) (q : (D₂).contr.Idx) : ((D₂).rhsIdx i q 1).val = (i 2).val := by
  unfold DotDims.rhsIdx
  rw [dif_neg (show ¬(1 : Fin S32x64x32.rank) ∈ (D₂).rhsBatch by decide), dif_pos (show (1 : Fin S32x64x32.rank) ∈ (D₂).rhsNonContracting by decide)]
  rfl
theorem score_r2 (i : S32x64x64.Idx) (q : (D₂).contr.Idx) : ((D₂).rhsIdx i q 2).val = (q ⟨0, by decide⟩).val :=
  (D₂).rhsIdx_val_of_single rfl i q

/-- Element (p, q, k) of the batched product of queries against keys into zero. -/
theorem scoreMat_apply (a b : FVec Ideal S32x64x32 .f32) (p : Fin 32) (q k : Fin 64) :
    matmul (D₂) none a b (constant S32x64x64 .f32 0x00000000#32) (ix3 p q k)
      = ∑ d : Fin 32, a (ix3 p q d) * b (ix3 p k d) := by
  simp only [matmul]
  rw [Ideal.matmul_constant_zero_apply, ← Equiv.sum_comp (contrEquiv1 (D₂) 32 rfl rfl).symm]
  refine Finset.sum_congr rfl fun d _ => ?_
  have hk := contrEquiv1_symm_val (D₂) 32 rfl rfl d
  have el : (D₂).lhsIdx (ix3 p q k) ((contrEquiv1 (D₂) 32 rfl rfl).symm d) = ix3 p q d := funext fun x => Fin.ext (by
    match x with
    | ⟨0, _⟩ => exact score_l0 _ _
    | ⟨1, _⟩ => exact score_l1 _ _
    | ⟨2, _⟩ => exact (score_l2 _ _).trans hk)
  have er : (D₂).rhsIdx (ix3 p q k) ((contrEquiv1 (D₂) 32 rfl rfl).symm d) = ix3 p k d := funext fun x => Fin.ext (by
    match x with
    | ⟨0, _⟩ => exact score_r0 _ _
    | ⟨1, _⟩ => exact score_r1 _ _
    | ⟨2, _⟩ => exact (score_r2 _ _).trans hk)
  rw [el, er]
end Score

/-! ## batched rows × columns -/

section Mix
local notation "D₃" => dot_S32x64x64_S32x64x32_S32x64x32_2_1_1_2_0_0

theorem mix_l0 (i : S32x64x32.Idx) (q : (D₃).contr.Idx) : ((D₃).lhsIdx i q 0).val = (i 0).val := by
  unfold DotDims.lhsIdx
  rw [dif_pos (show (0 : Fin S32x64x64.rank) ∈ (D₃).lhsBatch by decide)]
  rfl
theorem mix_l1 (i : S32x64x32.Idx) (q : (D₃).contr.Idx) : ((D₃).lhsIdx i q 1).val = (i 1).val := by
  unfold DotDims.lhsIdx
  rw [dif_neg (show ¬(1 : Fin S32x64x64.rank) ∈ (D₃).lhsBatch by decide), dif_pos (show (1 : Fin S32x64x64.rank) ∈ (D₃).lhsNonContracting by decide)]
  rfl
theorem mix_l2 (i : S32x64x32.Idx) (q : (D₃).contr.Idx) : ((D₃).lhsIdx i q 2).val = (q ⟨0, by decide⟩).val :=
  (D₃).lhsIdx_val_of_single rfl i q
theorem mix_r0 (i : S32x64x32.Idx) (q : (D₃).contr.Idx) : ((D₃).rhsIdx i q 0).val = (i 0).val := by
  unfold DotDims.rhsIdx
  rw [dif_pos (show (0 : Fin S32x64x32.rank) ∈ (D₃).rhsBatch by decide)]
  rfl
theorem mix_r1 (i : S32x64x32.Idx) (q : (D₃).contr.Idx) : ((D₃).rhsIdx i q 1).val = (q ⟨0, by decide⟩).val :=
  (D₃).rhsIdx_val_of_single rfl i q
theorem mix_r2 (i : S32x64x32.Idx) (q : (D₃).contr.Idx) : ((D₃).rhsIdx i q 2).val = (i 2).val := by
  unfold DotDims.rhsIdx
  rw [dif_neg (show ¬(2 : Fin S32x64x32.rank) ∈ (D₃).rhsBatch by decide), dif_pos (show (2 : Fin S32x64x32.rank) ∈ (D₃).rhsNonContracting by decide)]
  rfl

/-- Element (p, q, d) of the batched product of attention weights with values into zero. -/
theorem mixMat_apply (a : FVec Ideal S32x64x64 .f32) (b : FVec Ideal S32x64x32 .f32) (p : Fin 32) (q : Fin 64) (d : Fin 32) :
    matmul (D₃) none a b (constant S32x64x32 .f32 0x00000000#32) (ix3 p q d)
      = ∑ k : Fin 64, a (ix3 p q k) * b (ix3 p k d) := by
  simp only [matmul]
  rw [Ideal.matmul_constant_zero_apply, ← Equiv.sum_comp (contrEquiv1 (D₃) 64 rfl rfl).symm]
  refine Finset.sum_congr rfl fun k _ => ?_
  have hk := contrEquiv1_symm_val (D₃) 64 rfl rfl k
  have el : (D₃).lhsIdx (ix3 p q d) ((contrEquiv1 (D₃) 64 rfl rfl).symm k) = ix3 p q k := funext fun x => Fin.ext (by
    match x with
    | ⟨0, _⟩ => exact mix_l0 _ _
    | ⟨1, _⟩ => exact mix_l1 _ _
    | ⟨2, _⟩ => exact (mix_l2 _ _).trans hk)
  have er : (D₃).rhsIdx (ix3 p q d) ((contrEquiv1 (D₃) 64 rfl rfl).symm k) = ix3 p k d := funext fun x => Fin.ext (by
    match x with
    | ⟨0, _⟩ => exact mix_r0 _ _
    | ⟨1, _⟩ => exact (mix_r1 _ _).trans hk
    | ⟨2, _⟩ => exact mix_r2 _ _)
  rw [el, er]
end Mix

end Cert.Attn.K

end
-- ==== Proof.LibLayout3.lean ====
/-
  Rank-3 layout operations read at an index given by coordinates: a matrix cast to a stack of columns
  `[a, b] → [a, b, 1]` or of rows `[a, b] → [a, 1, b]`, and either broadcast along its unit axis to `[a, b, c]`; and a
  one-element vector cast to `[1, 1, 1]` and read at its one position. Each is the parent lemma of the value library
  with the per-axis arithmetic done.
-/
import Idealize.ShloMosaic.Lib.Pipeline.Value
import Idealize.ShloMosaic.Lib.ValueIdx
import Idealize.ShloMosaic.Lib.ValueLayout

namespace Cert.Layout3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, k)`, the operand at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- A stack of columns `[a, b, 1]` broadcast to `[a, b, c]` does not depend on the last coordinate. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A stack of rows `[a, 1, c]` broadcast to `[a, b, c]` does not depend on the middle coordinate. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A one-element vector cast to `[1, 1, 1]` and read at its one position is its element. -/
theorem extractAt_shapeCast_one (x : (⟨1, ![1]⟩ : Shape).Idx → α)
    (h : (⟨1, ![1]⟩ : Shape).ShapeCasts ⟨3, ![1, 1, 1]⟩)
    (hp : ∀ a, (![0, 0, 0] : Fin 3 → ℕ) a < (⟨3, ![1, 1, 1]⟩ : Shape).size a) :
    extractAt ![0, 0, 0] (shapeCast ⟨3, ![1, 1, 1]⟩ x h) hp = x (ix1 (0 : Fin 1)) := by
  unfold extractAt
  exact shapeCast_apply x h _ _ (by
    rw [Shape.rowMajor_val_three, Shape.rowMajor_val_one]
    rfl)

end Cert.Layout3
-- ==== Proof.Spec.lean ====
/-
  The function both programs compute, for ONE batch element, over plain coordinates.

  A batch element is a sequence of 64 agents, each a vector of 256 features `X l d`, and a 64 × 64 gate
  `Gr q k` between agents. Three affine maps (`Wq, bq`, `Wk, bk`, `Wv, bv`; weights stored [out, in])
  give queries, keys and values; the 256 output features are cut into 8 heads of 32 lanes, column
  `col h d = 32·h + d`. For head `h` the logit of query `q` against key `k` is

      ((Σ_d Q q (col h d) · K k (col h d)) · scale · σ(ML h q k) + log (σ(ML h q k) + ε)) · Gr q k

  with `σ` the logistic function of the learned mask logits `ML`; the attention weights are the softmax of
  the logits along `k` (subtract the row maximum, exponentiate, divide by the row sum); head `h` of the
  mixed values is `Σ_k att h q k · V k (col h d)`; the heads are laid side by side along the feature axis
  and a fourth affine map (`Wp, bp`) gives the output row.

  Everything is over the extended reals with the exact operations (`Ideal.div`, `Ideal.exp`,
  `Ideal.log`, `Ideal.logistic`), and the three float literals are kept as their binary words: both
  programs carry the same words, so they are never evaluated.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- Feature column of lane `d` of head `h`: `32·h + d`. -/
def col (h : Fin 8) (d : Fin 32) : Fin 256 := ⟨h.val * 32 + d.val, by omega⟩

/-- The head a feature column belongs to. -/
def headOf (e : Fin 256) : Fin 8 := ⟨e.val / 32, by omega⟩
/-- The lane of a feature column inside its head. -/
def laneOf (e : Fin 256) : Fin 32 := ⟨e.val % 32, by omega⟩

theorem col_headOf_laneOf (e : Fin 256) : col (headOf e) (laneOf e) = e := by
  apply Fin.ext; simp only [col, headOf, laneOf]; omega

/-- The score scale, the word of `f32(1/√32)`. -/
def scaleC : EReal := Ideal.ofBits .f32 0x3E3504F3#32
/-- The offset inside the logarithm, the word of `f32(1e-8)`. -/
def epsC : EReal := Ideal.ofBits .f32 0x322BCC77#32
/-- The start value of the row maximum, the word of `-∞`. -/
def negInfC : EReal := Ideal.ofBits .f32 0xFF800000#32

section
variable (X : Fin 64 → Fin 256 → EReal) (Gr : Fin 64 → Fin 64 → EReal)
  (Wq : Fin 256 → Fin 256 → EReal) (bq : Fin 256 → EReal)
  (Wk : Fin 256 → Fin 256 → EReal) (bk : Fin 256 → EReal)
  (Wv : Fin 256 → Fin 256 → EReal) (bv : Fin 256 → EReal)
  (Wp : Fin 256 → Fin 256 → EReal) (bp : Fin 256 → EReal)
  (ML : Fin 8 → Fin 64 → Fin 64 → EReal)

/-- An affine map of agent `l`'s features, output feature `e`: `Σ_d X l d · W e d + b e`. -/
def lin (X : Fin 64 → Fin 256 → EReal) (W : Fin 256 → Fin 256 → EReal) (b : Fin 256 → EReal)
    (l : Fin 64) (e : Fin 256) : EReal :=
  (∑ d : Fin 256, X l d * W e d) + b e

/-- The scaled score of query `q` against key `k` in head `h`. -/
def score (h : Fin 8) (q k : Fin 64) : EReal :=
  (∑ d : Fin 32, lin X Wq bq q (col h d) * lin X Wk bk k (col h d)) * scaleC

/-- The learned mask: the logistic function of the mask logit. -/
def gate (h : Fin 8) (q k : Fin 64) : EReal := Ideal.logistic (ML h q k)

/-- The logit: masked score, plus the log of the mask, gated by the agent graph. -/
def logit (h : Fin 8) (q k : Fin 64) : EReal :=
  (score X Wq bq Wk bk h q k * gate ML h q k + Ideal.log (gate ML h q k + epsC)) * Gr q k

/-- The row maximum the softmax subtracts (folded from `-∞`, and once more joined with `-∞`). -/
def rowMax (h : Fin 8) (q : Fin 64) : EReal :=
  max negInfC ((Finset.univ : Finset (Fin 64)).fold max negInfC (fun k => logit X Gr Wq bq Wk bk ML h q k))

/-- The exponential of the shifted logit. -/
def expo (h : Fin 8) (q k : Fin 64) : EReal :=
  Ideal.exp (logit X Gr Wq bq Wk bk ML h q k - rowMax X Gr Wq bq Wk bk ML h q)

/-- The softmax denominator of row `q`. -/
def denom (h : Fin 8) (q : Fin 64) : EReal := ∑ k : Fin 64, expo X Gr Wq bq Wk bk ML h q k

/-- The attention weight: the second result of both programs, at batch element, head `h`, row `q`, column `k`. -/
def att (h : Fin 8) (q k : Fin 64) : EReal :=
  Ideal.div (expo X Gr Wq bq Wk bk ML h q k) (denom X Gr Wq bq Wk bk ML h q)

/-- Head `h` of the mixed values, agent `q`, lane `d`. -/
def mixHead (h : Fin 8) (q : Fin 64) (d : Fin 32) : EReal :=
  ∑ k : Fin 64, att X Gr Wq bq Wk bk ML h q k * lin X Wv bv k (col h d)

/-- The heads side by side along the feature axis. -/
def mix (l : Fin 64) (e : Fin 256) : EReal :=
  mixHead X Gr Wq bq Wk bk Wv bv ML (headOf e) l (laneOf e)

/-- The output row: the first result of both programs, at batch element, agent `l`, feature `e`. -/
def outRow (l : Fin 64) (e : Fin 256) : EReal :=
  (∑ d : Fin 256, mix X Gr Wq bq Wk bk Wv bv ML l d * Wp e d) + bp e

end

/-! ## The two results over whole arrays

The same functions with the batch element read off an array index: `hidden_state [1024, 64, 256]`,
`graph [1024, 64, 64]`, the four weight matrices `[256, 256]` and biases `[256]`, and the mask logits
`[1, 8, 64, 64]`. A kernel block of 32 batch elements is read with the same functions at `[32, …]`, so the
batch extents are parameters. -/

section
variable {B : Nat}

/-- The attention weights `[B, 8, 64, 64]` as one function of the argument arrays. -/
def attArr (a0 : (⟨3, ![B, 64, 256]⟩ : Shape).Idx → EReal) (a1 : (⟨3, ![B, 64, 64]⟩ : Shape).Idx → EReal)
    (a2 : (⟨2, ![256, 256]⟩ : Shape).Idx → EReal) (a3 : (⟨1, ![256]⟩ : Shape).Idx → EReal)
    (a4 : (⟨2, ![256, 256]⟩ : Shape).Idx → EReal) (a5 : (⟨1, ![256]⟩ : Shape).Idx → EReal)
    (a10 : (⟨4, ![1, 8, 64, 64]⟩ : Shape).Idx → EReal) : (⟨4, ![B, 8, 64, 64]⟩ : Shape).Idx → EReal :=
  fun i => att (fun l d => a0 (ix3 (i 0) l d)) (fun q k => a1 (ix3 (i 0) q k))
    (fun e d => a2 (ix2 e d)) (fun e => a3 (ix1 e)) (fun e d => a4 (ix2 e d)) (fun e => a5 (ix1 e))
    (fun h q k => a10 (ix4 0 h q k)) (i 1) (i 2) (i 3)

/-- The output rows `[B, 64, 256]` as one function of the argument arrays. -/
def outArr (a0 : (⟨3, ![B, 64, 256]⟩ : Shape).Idx → EReal) (a1 : (⟨3, ![B, 64, 64]⟩ : Shape).Idx → EReal)
    (a2 : (⟨2, ![256, 256]⟩ : Shape).Idx → EReal) (a3 : (⟨1, ![256]⟩ : Shape).Idx → EReal)
    (a4 : (⟨2, ![256, 256]⟩ : Shape).Idx → EReal) (a5 : (⟨1, ![256]⟩ : Shape).Idx → EReal)
    (a6 : (⟨2, ![256, 256]⟩ : Shape).Idx → EReal) (a7 : (⟨1, ![256]⟩ : Shape).Idx → EReal)
    (a8 : (⟨2, ![256, 256]⟩ : Shape).Idx → EReal) (a9 : (⟨1, ![256]⟩ : Shape).Idx → EReal)
    (a10 : (⟨4, ![1, 8, 64, 64]⟩ : Shape).Idx → EReal) : (⟨3, ![B, 64, 256]⟩ : Shape).Idx → EReal :=
  fun i => outRow (fun l d => a0 (ix3 (i 0) l d)) (fun q k => a1 (ix3 (i 0) q k))
    (fun e d => a2 (ix2 e d)) (fun e => a3 (ix1 e)) (fun e d => a4 (ix2 e d)) (fun e => a5 (ix1 e))
    (fun e d => a6 (ix2 e d)) (fun e => a7 (ix1 e)) (fun e d => a8 (ix2 e d)) (fun e => a9 (ix1 e))
    (fun h q k => a10 (ix4 0 h q k)) (i 1) (i 2)

end

end Cert.Attn

end
-- ==== Proof.KSoft.lean ====
/-
  One head's attention weights on a block, as three block functions read at one element.

  * `scoreBlk qs ks`: the batched product of a head's queries against its keys, times the scale:
    at (p, q, k) it is (Σ_d qs(p, q, d) · ks(p, k, d)) · scale.
  * `logitBlk g sc ml`: with σ the logistic function of the head's 64 × 64 mask logits `ml`, the
    same for every batch element: (sc · σ(ml) + log (σ(ml) + ε)) · g, element by element.
  * `softBlk v`: the softmax of `v` along its last axis: subtract the row maximum (folded from -∞ and
    joined with -∞ once more), exponentiate, divide by the row sum. At (p, q, k) it depends on row
    (p, q) of `v` only: `softRow (fun k' => v (p, q, k')) k`.
-/
import proofs.«100361_j80771154969227_1_alg».proof.Proof.KMat
import proofs.«100361_j80771154969227_1_alg».proof.Proof.LibLayout3
import proofs.«100361_j80771154969227_1_alg».proof.Proof.Spec
import Idealize.ShloMosaic.Lib.ValueLayout

noncomputable section

namespace Cert.Attn.K

open Cert.KernelIdeal Cert.KernelIdeal.Facts₀ Idealize.ShloMosaic Idealize.ShloMosaic.ValueIdx

/-- The softmax of one row of 64 logits, entry `k`. -/
def softRow (L : Fin 64 → EReal) (k : Fin 64) : EReal :=
  Ideal.div (Ideal.exp (L k - max negInfC ((Finset.univ : Finset (Fin 64)).fold max negInfC L)))
    (∑ k' : Fin 64, Ideal.exp (L k' - max negInfC ((Finset.univ : Finset (Fin 64)).fold max negInfC L)))

/-- The specification's attention weight is the softmax of its row of logits. -/
theorem att_eq_softRow (X : Fin 64 → Fin 256 → EReal) (Gr : Fin 64 → Fin 64 → EReal)
    (Wq : Fin 256 → Fin 256 → EReal) (bq : Fin 256 → EReal) (Wk : Fin 256 → Fin 256 → EReal) (bk : Fin 256 → EReal)
    (ML : Fin 8 → Fin 64 → Fin 64 → EReal) (h : Fin 8) (q k : Fin 64) :
    att X Gr Wq bq Wk bk ML h q k = softRow (fun k' => logit X Gr Wq bq Wk bk ML h q k') k := rfl

/-! ## The two row reductions -/

/-- The row maximum of a [32, 64, 64] block at (p, q): the fold of max from -∞ over the row. -/
theorem rowMax_apply (v : FVec Ideal S32x64x64 .f32) (p : Fin 32) (q : Fin 64) :
    multiReduction .maximumf [2] S32x64 v 0xFF800000#32 reduces_S32x64x64_S32x64 (.inl rfl) rfl (ix2 p q)
      = (Finset.univ : Finset (Fin 64)).fold max negInfC (fun k => v (ix3 p q k)) := by
  refine (Ideal.multiReduction_maximumf_single v 0xFF800000#32 reduces_S32x64x64_S32x64 (.inl rfl) rfl (ix2 p q)).trans ?_
  have e : (v ∘ reduces_S32x64x64_S32x64.lift (ix2 p q)) = fun k : Fin 64 => v (ix3 p q k) := by
    funext k
    exact congrArg v (funext fun a => Fin.ext (by match a with | ⟨0, _⟩ => rfl | ⟨1, _⟩ => rfl | ⟨2, _⟩ => rfl))
  rw [e]
  rfl

/-- The row sum of a [32, 64, 64] block at (p, q). -/
theorem rowSum_apply (v : FVec Ideal S32x64x64 .f32) (p : Fin 32) (q : Fin 64) :
    multiReduction .add [2] S32x64 v 0x00000000#32 reduces_S32x64x64_S32x64 (.inl rfl) rfl (ix2 p q)
      = ∑ k : Fin 64, v (ix3 p q k) := by
  refine (Ideal.multiReduction_add_single v 0x00000000#32 reduces_S32x64x64_S32x64 (.inl rfl) rfl (ix2 p q)).trans ?_
  refine Finset.sum_congr rfl fun k _ => ?_
  exact congrArg v (funext fun a => Fin.ext (by match a with | ⟨0, _⟩ => rfl | ⟨1, _⟩ => rfl | ⟨2, _⟩ => rfl))

/-! ## The three block functions -/

/-- The softmax along the last axis of a [32, 64, 64] block, as the kernel spells it. -/
def softBlk (v : FVec Ideal S32x64x64 .f32) : FVec Ideal S32x64x64 .f32 :=
  divf (exp (subf v (broadcastTo S32x64x64 (shapeCast S32x64x1 (maximumf (broadcast S32x64 (Scalar.ofBits .f32 0xFF800000#32)) (multiReduction .maximumf [2] S32x64 v 0xFF800000#32 reduces_S32x64x64_S32x64 (.inl rfl) rfl)) shapeCasts_S32x64_S32x64x1) broadcasts_S32x64x1_S32x64x64)))
    (broadcastTo S32x64x64 (shapeCast S32x64x1 (multiReduction .add [2] S32x64 (exp (subf v (broadcastTo S32x64x64 (shapeCast S32x64x1 (maximumf (broadcast S32x64 (Scalar.ofBits .f32 0xFF800000#32)) (multiReduction .maximumf [2] S32x64 v 0xFF800000#32 reduces_S32x64x64_S32x64 (.inl rfl) rfl)) shapeCasts_S32x64_S32x64x1) broadcasts_S32x64x1_S32x64x64))) 0x00000000#32 reduces_S32x64x64_S32x64 (.inl rfl) rfl) shapeCasts_S32x64_S32x64x1) broadcasts_S32x64x1_S32x64x64)

/-- The shifted exponentials of a row. -/
theorem expShift_apply (v : FVec Ideal S32x64x64 .f32) (p : Fin 32) (q k : Fin 64) :
    exp (subf v (broadcastTo S32x64x64 (shapeCast S32x64x1 (maximumf (broadcast S32x64 (Scalar.ofBits .f32 0xFF800000#32)) (multiReduction .maximumf [2] S32x64 v 0xFF800000#32 reduces_S32x64x64_S32x64 (.inl rfl) rfl)) shapeCasts_S32x64_S32x64x1) broadcasts_S32x64x1_S32x64x64)) (ix3 p q k)
      = Ideal.exp (v (ix3 p q k) - max negInfC ((Finset.univ : Finset (Fin 64)).fold max negInfC (fun k' => v (ix3 p q k')))) := by
  show Ideal.exp (v (ix3 p q k) - broadcastTo S32x64x64 _ broadcasts_S32x64x1_S32x64x64 (ix3 p q k)) = _
  rw [Cert.Layout3.broadcastTo_ab1_abc_apply, Cert.Layout3.shapeCast_ab_ab1_apply, maximumf_apply, rowMax_apply]
  rfl

/-- The softmax block at (p, q, k) is the softmax of row (p, q). -/
theorem softBlk_apply (v : FVec Ideal S32x64x64 .f32) (p : Fin 32) (q k : Fin 64) :
    softBlk v (ix3 p q k) = softRow (fun k' => v (ix3 p q k')) k := by
  unfold softBlk softRow
  rw [divf_apply, expShift_apply, Cert.Layout3.broadcastTo_ab1_abc_apply, Cert.Layout3.shapeCast_ab_ab1_apply, rowSum_apply]
  exact congrArg (Ideal.div _) (Finset.sum_congr rfl fun k' _ => expShift_apply v p q k')

/-- The logit block: masked score plus the log of the mask, gated by the graph. -/
def logitBlk (g : Vec Ideal S32x64x64 .f32) (sc : FVec Ideal S32x64x64 .f32) (ml : FVec Ideal S64x64 .f32) : FVec Ideal S32x64x64 .f32 :=
  mulf (addf (mulf sc (broadcastTo S32x64x64 (shapeCast S1x64x64 (logistic ml) shapeCasts_S64x64_S1x64x64) broadcasts_S1x64x64_S32x64x64))
    (broadcastTo S32x64x64 (shapeCast S1x64x64 (log (addf (logistic ml) (broadcast S64x64 (Scalar.ofBits .f32 0x322BCC77#32)))) shapeCasts_S64x64_S1x64x64) broadcasts_S1x64x64_S32x64x64)) g

/-- A [1, 64, 64] array broadcast over 32 batch elements reads its one slab. -/
theorem bcast1_apply {α : Type} (v : S1x64x64.Idx → α) (p : Fin 32) (q k : Fin 64) :
    broadcastTo S32x64x64 v broadcasts_S1x64x64_S32x64x64 (ix3 p q k) = v (ix3 (0 : Fin 1) q k) := by
  refine broadcastTo_apply v broadcasts_S1x64x64_S32x64x64 (ix3 p q k) (ix3 (0 : Fin 1) q k) fun ax => ?_
  match ax with
  | ⟨0, _⟩ => rfl
  | ⟨1, _⟩ => rfl
  | ⟨2, _⟩ => rfl

theorem logitBlk_apply (g : Vec Ideal S32x64x64 .f32) (sc : FVec Ideal S32x64x64 .f32) (ml : FVec Ideal S64x64 .f32)
    (p : Fin 32) (q k : Fin 64) :
    logitBlk g sc ml (ix3 p q k)
      = (sc (ix3 p q k) * Ideal.logistic (ml (ix2 q k)) + Ideal.log (Ideal.logistic (ml (ix2 q k)) + epsC)) * g (ix3 p q k) := by
  unfold logitBlk
  rw [mulf_apply, addf_apply, mulf_apply, bcast1_apply, bcast1_apply, shapeCast_ab_1ab_apply, shapeCast_ab_1ab_apply]
  rfl

/-- The scaled scores of one head on a block. -/
def scoreBlk (qs ks : FVec Ideal S32x64x32 .f32) : FVec Ideal S32x64x64 .f32 :=
  mulf (matmul dot_S32x64x32_S32x64x32_S32x64x64_2_2_1_1_0_0 none qs ks (constant S32x64x64 .f32 0x00000000#32))
    (broadcast S32x64x64 (Scalar.ofBits .f32 0x3E3504F3#32))

theorem scoreBlk_apply (qs ks : FVec Ideal S32x64x32 .f32) (p : Fin 32) (q k : Fin 64) :
    scoreBlk qs ks (ix3 p q k) = (∑ d : Fin 32, qs (ix3 p q d) * ks (ix3 p k d)) * scaleC := by
  unfold scoreBlk
  rw [mulf_apply, scoreMat_apply]
  rfl

end Cert.Attn.K

end
-- ==== Proof.LibRowReshape.lean ====
/-
  A reshape that merges, or splits, the two leading axes of a rank-3 array, read at an index given by its coordinates.

  A shape cast keeps the row-major position of every entry. In the shape [a, b, c] the entry (p, q, k) sits at position
  (p·b + q)·c + k; in the shape [m, c] the entry (r, k) sits at position r·c + k. The two positions agree exactly when
  r = p·b + q, so

  * [a, b, c] merged to [m, c] reads, at (p·b + q, k), the operand at (p, q, k)   (`shapeCast_abc_mc_apply`);
  * [m, c] split to [a, b, c] reads, at (p, q, k), the operand at (p·b + q, k)     (`shapeCast_mc_abc_apply`).

  The row is passed as an index `r : Fin m` together with the equation `r = p·b + q` on its value, so that no bound on
  p·b + q has to be carried in the statement; that the shapes have equally many entries (m = a·b when c ≠ 0) is part of
  the shape-cast hypothesis and is not used otherwise.
-/
import Idealize.ShloMosaic.Lib.Pipeline.Value
import Idealize.ShloMosaic.Lib.ValueIdx

namespace Cert.RowReshape

open Idealize.ShloMosaic Idealize.ShloMosaic.ValueIdx

variable {α : Type}

/-- [a, b, c] merged to [a·b, c]: the entry at (row, k), where row = p·b + q, is the operand at (p, q, k). -/
theorem shapeCast_abc_mc_apply {a b c m : ℕ} (x : (⟨3, ![a, b, c]⟩ : Shape).Idx → α)
    (h : (⟨3, ![a, b, c]⟩ : Shape).ShapeCasts ⟨2, ![m, c]⟩)
    (p : Fin a) (q : Fin b) (k : Fin c) (r : Fin m) (hr : r.val = p.val * b + q.val) :
    shapeCast ⟨2, ![m, c]⟩ x h (ix2 r k) = x (ix3 p q k) :=
  shapeCast_apply x h _ _ (by
    rw [Shape.rowMajor_val_three, Shape.rowMajor_val_two]
    show (p.val * b + q.val) * c + k.val = r.val * c + k.val
    rw [hr])

/-- [a·b, c] split to [a, b, c]: the entry at (p, q, k) is the operand at (p·b + q, k). -/
theorem shapeCast_mc_abc_apply {a b c m : ℕ} (y : (⟨2, ![m, c]⟩ : Shape).Idx → α)
    (h : (⟨2, ![m, c]⟩ : Shape).ShapeCasts ⟨3, ![a, b, c]⟩)
    (p : Fin a) (q : Fin b) (k : Fin c) (r : Fin m) (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

end Cert.RowReshape
-- ==== Proof.KProj.lean ====
/-
  The three affine maps of a block, read at one element.

  A block of 32 batch elements `x0 [32, 64, 256]` is flattened to 2048 rows, multiplied by the transposed
  weight matrix `w [256, 256]` (stored [out, in]) and shifted by the bias row, then cut back into
  [32, 64, 256]: at (p, l, e) this is Σ_d x0(p, l, d) · w(e, d) + b(e). Row p·64 + l of the flattened
  block is agent l of batch element p. Queries, keys and values are this one function of their own
  weights.
-/
import proofs.«100361_j80771154969227_1_alg».proof.Proof.KMat
import proofs.«100361_j80771154969227_1_alg».proof.Proof.LibRowReshape
import Idealize.ShloMosaic.Lib.ValueLayout

noncomputable section

namespace Cert.Attn.K

open Cert.KernelIdeal Cert.KernelIdeal.Gen Idealize.ShloMosaic Idealize.ShloMosaic.ValueIdx

/-- The flattened row of agent `l` of batch element `p`. -/
def row (p : Fin 32) (l : Fin 64) : Fin 2048 := ⟨p.val * 64 + l.val, by have := p.isLt; have := l.isLt; omega⟩

theorem row_val (p : Fin 32) (l : Fin 64) : (row p l).val = p.val * 64 + l.val := rfl

/-- The query map of a block at (p, l, e). -/
theorem pay5_apply (x0 : Vec Ideal S32x64x256 .f32) (w : Vec Ideal S256x256 .f32) (b : Vec Ideal S256 .f32)
    (p : Fin 32) (l : Fin 64) (e : Fin 256) :
    k0_pay5 x0 w b (ix3 p l e) = (∑ d : Fin 256, x0 (ix3 p l d) * w (ix2 e d)) + b (ix1 e) := by
  unfold k0_pay5 k0_pay4
  dsimp only
  rw [Cert.RowReshape.shapeCast_mc_abc_apply _ _ p l e (row p l) (row_val p l), addf_apply, projMat_apply]
  congr 1
  · refine Finset.sum_congr rfl fun d _ => ?_
    rw [Cert.RowReshape.shapeCast_abc_mc_apply x0 _ p l d (row p l) (row_val p l), transpose_ix2_apply]
  · rw [broadcastTo_1b_ab_apply, shapeCast_a_1a_apply]

/-- The key map and the value map are the same function of their own weights. -/
theorem pay6_eq : @k0_pay6 Ideal _ = @k0_pay5 Ideal _ := rfl
theorem pay7_eq : @k0_pay7 Ideal _ = @k0_pay5 Ideal _ := rfl

end Cert.Attn.K

end
-- ==== Proof.KHeads.lean ====
/-
  The eight heads of the kernel body, each as the same three block functions.

  The body is written head by head: head `h` takes the 32 columns 32·h … 32·h+31 of the query, key and
  value maps (`sl h`), reads its own 64 × 64 slab of the mask logits (`mload x10 h`), forms
  `headAtt = softBlk (logitBlk g (scoreBlk q_h k_h) mask_h)`, stores it as slab `h` of the attention output,
  and mixes its values `headMix att_h v_h`. The eight results are laid side by side and sent through the
  output map. The printed body is cut into named stretches at fixed statement counts, so the eight heads are
  cut at different places; unfolding the names shows every head to be the same composition.
-/
import proofs.«100361_j80771154969227_1_alg».proof.Proof.KSoft
import proofs.«100361_j80771154969227_1_alg».proof.Proof.KProj
import proofs.«100361_j80771154969227_1_alg».proof.Proof.Gen.KernelIdeal.Frame

set_option maxRecDepth 16384

noncomputable section

namespace Cert.Attn.K

open Cert.KernelIdeal Cert.KernelIdeal.Gen Idealize.ShloMosaic Idealize.ShloMosaic.ValueIdx

/-- Head `h`'s 32 columns of a [32, 64, 256] block. -/
def sl : Fin 8 → FVec Ideal S32x64x256 .f32 → FVec Ideal S32x64x32 .f32
  | ⟨0, _⟩, v => extractStridedSlice S32x64x32 ![0, 0, 0] v slices_S32x64x256_o0_0_0_S32x64x32
  | ⟨1, _⟩, v => extractStridedSlice S32x64x32 ![0, 0, 32] v slices_S32x64x256_o0_0_32_S32x64x32
  | ⟨2, _⟩, v => extractStridedSlice S32x64x32 ![0, 0, 64] v slices_S32x64x256_o0_0_64_S32x64x32
  | ⟨3, _⟩, v => extractStridedSlice S32x64x32 ![0, 0, 96] v slices_S32x64x256_o0_0_96_S32x64x32
  | ⟨4, _⟩, v => extractStridedSlice S32x64x32 ![0, 0, 128] v slices_S32x64x256_o0_0_128_S32x64x32
  | ⟨5, _⟩, v => extractStridedSlice S32x64x32 ![0, 0, 160] v slices_S32x64x256_o0_0_160_S32x64x32
  | ⟨6, _⟩, v => extractStridedSlice S32x64x32 ![0, 0, 192] v slices_S32x64x256_o0_0_192_S32x64x32
  | ⟨7, _⟩, v => extractStridedSlice S32x64x32 ![0, 0, 224] v slices_S32x64x256_o0_0_224_S32x64x32
  | ⟨_ + 8, hh⟩, _ => absurd hh (Nat.not_lt.2 (Nat.le_add_left _ _))

/-- Head `h`'s columns read at (p, l, d): the block at column 32·h + d. -/
theorem sl_apply (h : Fin 8) (v : FVec Ideal S32x64x256 .f32) (p : Fin 32) (l : Fin 64) (d : Fin 32) :
    sl h v (ix3 p l d) = v (ix3 p l (col h d)) := by
  match h with
  | ⟨0, _⟩ =>
    exact extractStridedSlice_apply ![0, 0, 0] v slices_S32x64x256_o0_0_0_S32x64x32 (ix3 p l d) (ix3 p l (col ⟨0, by omega⟩ d)) fun a => by
      match a with
      | ⟨0, _⟩ => exact (Nat.zero_add _).symm
      | ⟨1, _⟩ => exact (Nat.zero_add _).symm
      | ⟨2, _⟩ => show 0 * 32 + d.val = 0 + d.val; rfl
  | ⟨1, _⟩ =>
    exact extractStridedSlice_apply ![0, 0, 32] v slices_S32x64x256_o0_0_32_S32x64x32 (ix3 p l d) (ix3 p l (col ⟨1, by omega⟩ d)) fun a => by
      match a with
      | ⟨0, _⟩ => exact (Nat.zero_add _).symm
      | ⟨1, _⟩ => exact (Nat.zero_add _).symm
      | ⟨2, _⟩ => show 1 * 32 + d.val = 32 + d.val; rfl
  | ⟨2, _⟩ =>
    exact extractStridedSlice_apply ![0, 0, 64] v slices_S32x64x256_o0_0_64_S32x64x32 (ix3 p l d) (ix3 p l (col ⟨2, by omega⟩ d)) fun a => by
      match a with
      | ⟨0, _⟩ => exact (Nat.zero_add _).symm
      | ⟨1, _⟩ => exact (Nat.zero_add _).symm
      | ⟨2, _⟩ => show 2 * 32 + d.val = 64 + d.val; rfl
  | ⟨3, _⟩ =>
    exact extractStridedSlice_apply ![0, 0, 96] v slices_S32x64x256_o0_0_96_S32x64x32 (ix3 p l d) (ix3 p l (col ⟨3, by omega⟩ d)) fun a => by
      match a with
      | ⟨0, _⟩ => exact (Nat.zero_add _).symm
      | ⟨1, _⟩ => exact (Nat.zero_add _).symm
      | ⟨2, _⟩ => show 3 * 32 + d.val = 96 + d.val; rfl
  | ⟨4, _⟩ =>
    exact extractStridedSlice_apply ![0, 0, 128] v slices_S32x64x256_o0_0_128_S32x64x32 (ix3 p l d) (ix3 p l (col ⟨4, by omega⟩ d)) fun a => by
      match a with
      | ⟨0, _⟩ => exact (Nat.zero_add _).symm
      | ⟨1, _⟩ => exact (Nat.zero_add _).symm
      | ⟨2, _⟩ => show 4 * 32 + d.val = 128 + d.val; rfl
  | ⟨5, _⟩ =>
    exact extractStridedSlice_apply ![0, 0, 160] v slices_S32x64x256_o0_0_160_S32x64x32 (ix3 p l d) (ix3 p l (col ⟨5, by omega⟩ d)) fun a => by
      match a with
      | ⟨0, _⟩ => exact (Nat.zero_add _).symm
      | ⟨1, _⟩ => exact (Nat.zero_add _).symm
      | ⟨2, _⟩ => show 5 * 32 + d.val = 160 + d.val; rfl
  | ⟨6, _⟩ =>
    exact extractStridedSlice_apply ![0, 0, 192] v slices_S32x64x256_o0_0_192_S32x64x32 (ix3 p l d) (ix3 p l (col ⟨6, by omega⟩ d)) fun a => by
      match a with
      | ⟨0, _⟩ => exact (Nat.zero_add _).symm
      | ⟨1, _⟩ => exact (Nat.zero_add _).symm
      | ⟨2, _⟩ => show 6 * 32 + d.val = 192 + d.val; rfl
  | ⟨7, _⟩ =>
    exact extractStridedSlice_apply ![0, 0, 224] v slices_S32x64x256_o0_0_224_S32x64x32 (ix3 p l d) (ix3 p l (col ⟨7, by omega⟩ d)) fun a => by
      match a with
      | ⟨0, _⟩ => exact (Nat.zero_add _).symm
      | ⟨1, _⟩ => exact (Nat.zero_add _).symm
      | ⟨2, _⟩ => show 7 * 32 + d.val = 224 + d.val; rfl
  | ⟨_ + 8, hh⟩ => exact absurd hh (Nat.not_lt.2 (Nat.le_add_left _ _))

/-- Head `h`'s slab of the mask logits, as the body loads it. -/
def mload (x10 : Vec Ideal S1x8x64x64 .f32) : Fin 8 → Vec Ideal S1x1x64x64 .f32
  | ⟨0, _⟩ => View.ld x10 r0_4
  | ⟨1, _⟩ => View.ld x10 r0_6
  | ⟨2, _⟩ => View.ld x10 r0_8
  | ⟨3, _⟩ => View.ld x10 r0_10
  | ⟨4, _⟩ => View.ld x10 r0_12
  | ⟨5, _⟩ => View.ld x10 r0_14
  | ⟨6, _⟩ => View.ld x10 r0_16
  | ⟨7, _⟩ => View.ld x10 r0_18
  | ⟨_ + 8, hh⟩ => absurd hh (Nat.not_lt.2 (Nat.le_add_left _ _))

/-- What head `h`'s load reads: the mask logits at (0, h, q, k). -/
theorem mload_apply (h : Fin 8) (x10 : Vec Ideal S1x8x64x64 .f32) (u w : Fin 1) (q k : Fin 64) :
    mload x10 h (ix4 u w q k) = x10 (ix4 (0 : Fin 1) h q k) := by
  have hu : u.val = 0 := by omega
  have hw : w.val = 0 := by omega
  match h with
  | ⟨0, _⟩ =>
    exact congrArg x10 (funext fun a => Fin.ext (by
      match a with
      | ⟨0, _⟩ => show 0 + 1 * u.val = 0; omega
      | ⟨1, _⟩ => show 0 + 1 * w.val = 0; omega
      | ⟨2, _⟩ => show 0 + 1 * q.val = q.val; omega
      | ⟨3, _⟩ => show 0 + 1 * k.val = k.val; omega))
  | ⟨1, _⟩ =>
    exact congrArg x10 (funext fun a => Fin.ext (by
      match a with
      | ⟨0, _⟩ => show 0 + 1 * u.val = 0; omega
      | ⟨1, _⟩ => show 1 + 1 * w.val = 1; omega
      | ⟨2, _⟩ => show 0 + 1 * q.val = q.val; omega
      | ⟨3, _⟩ => show 0 + 1 * k.val = k.val; omega))
  | ⟨2, _⟩ =>
    exact congrArg x10 (funext fun a => Fin.ext (by
      match a with
      | ⟨0, _⟩ => show 0 + 1 * u.val = 0; omega
      | ⟨1, _⟩ => show 2 + 1 * w.val = 2; omega
      | ⟨2, _⟩ => show 0 + 1 * q.val = q.val; omega
      | ⟨3, _⟩ => show 0 + 1 * k.val = k.val; omega))
  | ⟨3, _⟩ =>
    exact congrArg x10 (funext fun a => Fin.ext (by
      match a with
      | ⟨0, _⟩ => show 0 + 1 * u.val = 0; omega
      | ⟨1, _⟩ => show 3 + 1 * w.val = 3; omega
      | ⟨2, _⟩ => show 0 + 1 * q.val = q.val; omega
      | ⟨3, _⟩ => show 0 + 1 * k.val = k.val; omega))
  | ⟨4, _⟩ =>
    exact congrArg x10 (funext fun a => Fin.ext (by
      match a with
      | ⟨0, _⟩ => show 0 + 1 * u.val = 0; omega
      | ⟨1, _⟩ => show 4 + 1 * w.val = 4; omega
      | ⟨2, _⟩ => show 0 + 1 * q.val = q.val; omega
      | ⟨3, _⟩ => show 0 + 1 * k.val = k.val; omega))
  | ⟨5, _⟩ =>
    exact congrArg x10 (funext fun a => Fin.ext (by
      match a with
      | ⟨0, _⟩ => show 0 + 1 * u.val = 0; omega
      | ⟨1, _⟩ => show 5 + 1 * w.val = 5; omega
      | ⟨2, _⟩ => show 0 + 1 * q.val = q.val; omega
      | ⟨3, _⟩ => show 0 + 1 * k.val = k.val; omega))
  | ⟨6, _⟩ =>
    exact congrArg x10 (funext fun a => Fin.ext (by
      match a with
      | ⟨0, _⟩ => show 0 + 1 * u.val = 0; omega
      | ⟨1, _⟩ => show 6 + 1 * w.val = 6; omega
      | ⟨2, _⟩ => show 0 + 1 * q.val = q.val; omega
      | ⟨3, _⟩ => show 0 + 1 * k.val = k.val; omega))
  | ⟨7, _⟩ =>
    exact congrArg x10 (funext fun a => Fin.ext (by
      match a with
      | ⟨0, _⟩ => show 0 + 1 * u.val = 0; omega
      | ⟨1, _⟩ => show 7 + 1 * w.val = 7; omega
      | ⟨2, _⟩ => show 0 + 1 * q.val = q.val; omega
      | ⟨3, _⟩ => show 0 + 1 * k.val = k.val; omega))
  | ⟨_ + 8, hh⟩ => exact absurd hh (Nat.not_lt.2 (Nat.le_add_left _ _))

/-- One head's attention weights on a block. -/
def headAtt (g : Vec Ideal S32x64x64 .f32) (qs ks : FVec Ideal S32x64x32 .f32) (ml4 : Vec Ideal S1x1x64x64 .f32) :
    FVec Ideal S32x64x64 .f32 :=
  softBlk (logitBlk g (scoreBlk qs ks) (shapeCast S64x64 ml4 shapeCasts_S1x1x64x64_S64x64))

/-- One head's mixed values on a block. -/
def headMix (a : FVec Ideal S32x64x64 .f32) (vs : FVec Ideal S32x64x32 .f32) : FVec Ideal S32x64x32 .f32 :=
  matmul dot_S32x64x64_S32x64x32_S32x64x32_2_1_1_2_0_0 none a vs (constant S32x64x32 .f32 0x00000000#32)

/-- A [32, 64, 64] block stored as one slab [32, 1, 64, 64]. -/
def slab (a : FVec Ideal S32x64x64 .f32) : FVec Ideal S32x1x64x64 .f32 :=
  shapeCast S32x1x64x64 a shapeCasts_S32x64x64_S32x1x64x64

section
variable (x0 : Vec Ideal S32x64x256 .f32) (g : Vec Ideal S32x64x64 .f32)
  (wq : Vec Ideal S256x256 .f32) (bq : Vec Ideal S256 .f32) (wk : Vec Ideal S256x256 .f32) (bk : Vec Ideal S256 .f32)
  (wv : Vec Ideal S256x256 .f32) (bv : Vec Ideal S256 .f32)
  (Q K V : FVec Ideal S32x64x256 .f32) (ml : Vec Ideal S1x1x64x64 .f32)

/-! ### The stored slabs -/

theorem att0 : k0_pay12 g (k0_pay9 x0 wq bq wk bk) (k0_pay10 ml)
    = slab (headAtt g (sl 0 (k0_pay5 x0 wq bq)) (sl 0 (k0_pay5 x0 wk bk)) ml) := rfl
theorem att1 : k0_pay19 g (k0_pay16 Q K ml) (k0_pay17 ml) = slab (headAtt g (sl 1 Q) (sl 1 K) ml) := rfl
theorem att2 : k0_pay24 (k0_pay22 Q K g ml) = slab (headAtt g (sl 2 Q) (sl 2 K) ml) := rfl
theorem att3 : k0_pay28 (k0_pay27 Q K g ml) = slab (headAtt g (sl 3 Q) (sl 3 K) ml) := rfl
theorem att4 : k0_pay31 Q K g ml = slab (headAtt g (sl 4 Q) (sl 4 K) ml) := rfl
theorem att5 : k0_pay37 g (k0_pay33 Q) (k0_pay34 K) (constant S32x64x64 .f32 0x00000000#32) ml
    = slab (headAtt g (sl 5 Q) (sl 5 K) ml) := rfl
theorem att6 : k0_pay43 g (k0_pay40 Q K) (k0_pay41 ml) = slab (headAtt g (sl 6 Q) (sl 6 K) ml) := rfl
theorem att7 : k0_pay2 g (k0_pay47 Q K ml) (k0_pay48 ml) = slab (headAtt g (sl 7 Q) (sl 7 K) ml) := rfl

/-! ### The mixed values -/

theorem mix0 : k0_pay13 g (k0_pay8 x0 wv bv) (k0_pay9 x0 wq bq wk bk) (k0_pay10 ml)
    = headMix (headAtt g (sl 0 (k0_pay5 x0 wq bq)) (sl 0 (k0_pay5 x0 wk bk)) ml) (sl 0 (k0_pay5 x0 wv bv)) := rfl
theorem mix1 : k0_pay20 g (k0_pay14 V) (k0_pay16 Q K ml) (k0_pay17 ml)
    = headMix (headAtt g (sl 1 Q) (sl 1 K) ml) (sl 1 V) := rfl
theorem mix2 : k0_pay25 (k0_pay21 V) (k0_pay22 Q K g ml) = headMix (headAtt g (sl 2 Q) (sl 2 K) ml) (sl 2 V) := rfl
theorem mix3 : k0_pay29 (k0_pay26 V) (k0_pay27 Q K g ml) = headMix (headAtt g (sl 3 Q) (sl 3 K) ml) (sl 3 V) := rfl
theorem mix4 : k0_pay32 Q K V g ml = headMix (headAtt g (sl 4 Q) (sl 4 K) ml) (sl 4 V) := rfl
theorem mix5 : k0_pay38 g (k0_pay33 Q) (k0_pay34 K) (k0_pay35 V) (constant S32x64x64 .f32 0x00000000#32) ml
    = headMix (headAtt g (sl 5 Q) (sl 5 K) ml) (sl 5 V) := rfl
theorem mix6 : k0_pay44 g (k0_pay39 V) (k0_pay40 Q K) (k0_pay41 ml)
    = headMix (headAtt g (sl 6 Q) (sl 6 K) ml) (sl 6 V) := rfl
theorem mix7 : headMix (k0_pay1 g (k0_pay47 Q K ml) (k0_pay48 ml)) (k0_pay45 V)
    = headMix (headAtt g (sl 7 Q) (sl 7 K) ml) (sl 7 V) := rfl

end

end Cert.Attn.K

end
-- ==== Proof.KBlock.lean ====
/-
  One block's two results, read at one element, are the specification at that batch element.

  For head `h` the attention weights of a block at (p, q, k) are the softmax of the row of logits
  built from the head's 32 columns of the query and key maps, its slab of the mask logits and the
  block's graph slab: the specification's `att` with the coordinate functions of batch element `p`.
  The head's mixed values at (p, q, d) are Σ_k att(p, q, k) · V(p, k, 32·h + d). The eight heads laid
  side by side read, at feature column e, head e / 32 at lane e % 32, and the output map is the same
  affine map as the query map, applied to that concatenation.
-/
import proofs.«100361_j80771154969227_1_alg».proof.Proof.KHeads

set_option maxRecDepth 16384

noncomputable section

namespace Cert.Attn.K

open Cert.KernelIdeal Cert.KernelIdeal.Gen Idealize.ShloMosaic Idealize.ShloMosaic.ValueIdx

/-- A block stored as a slab reads the block: (p, 0, q, k) ↦ (p, q, k). -/
theorem slab_apply (a : FVec Ideal S32x64x64 .f32) (p : Fin 32) (u : Fin 1) (q k : Fin 64) :
    slab a (ix4 p u q k) = a (ix3 p q k) :=
  shapeCast_apply a shapeCasts_S32x64x64_S32x1x64x64 _ _ (by
    have hu : u.val = 0 := by omega
    rw [Shape.rowMajor_val_three, Shape.rowMajor_val_four]
    show (p.val * 64 + q.val) * 64 + k.val = ((p.val * 1 + u.val) * 64 + q.val) * 64 + k.val
    rw [hu, Nat.mul_one, Nat.add_zero])

/-- A loaded mask slab [1, 1, 64, 64] read as a 64 × 64 matrix. -/
theorem cast2_apply (ml4 : Vec Ideal S1x1x64x64 .f32) (q k : Fin 64) :
    shapeCast S64x64 ml4 shapeCasts_S1x1x64x64_S64x64 (ix2 q k) = ml4 (ix4 (0 : Fin 1) (0 : Fin 1) q k) :=
  shapeCast_apply ml4 shapeCasts_S1x1x64x64_S64x64 _ _ (by
    rw [Shape.rowMajor_val_four, Shape.rowMajor_val_two]
    show ((0 * 1 + 0) * 64 + q.val) * 64 + k.val = q.val * 64 + k.val
    omega)

/-- One head's attention weights at (p, q, k): the softmax of its row of logits. -/
theorem headAtt_apply (g : Vec Ideal S32x64x64 .f32) (qs ks : FVec Ideal S32x64x32 .f32) (ml4 : Vec Ideal S1x1x64x64 .f32)
    (p : Fin 32) (q k : Fin 64) :
    headAtt g qs ks ml4 (ix3 p q k)
      = softRow (fun k' => ((∑ d : Fin 32, qs (ix3 p q d) * ks (ix3 p k' d)) * scaleC
            * Ideal.logistic (ml4 (ix4 (0 : Fin 1) (0 : Fin 1) q k'))
          + Ideal.log (Ideal.logistic (ml4 (ix4 (0 : Fin 1) (0 : Fin 1) q k')) + epsC)) * g (ix3 p q k')) k := by
  unfold headAtt
  rw [softBlk_apply]
  exact congrArg (fun L => softRow L k) (funext fun k' => by rw [logitBlk_apply, scoreBlk_apply, cast2_apply])

/-- One head's mixed values at (p, q, d). -/
theorem headMix_apply (a : FVec Ideal S32x64x64 .f32) (vs : FVec Ideal S32x64x32 .f32) (p : Fin 32) (q : Fin 64) (d : Fin 32) :
    headMix a vs (ix3 p q d) = ∑ k : Fin 64, a (ix3 p q k) * vs (ix3 p k d) :=
  mixMat_apply a vs p q d

section
variable (x0 : Vec Ideal S32x64x256 .f32) (x1 : Vec Ideal S32x64x64 .f32)
  (x2 : Vec Ideal S256x256 .f32) (x3 : Vec Ideal S256 .f32) (x4 : Vec Ideal S256x256 .f32) (x5 : Vec Ideal S256 .f32)
  (x6 : Vec Ideal S256x256 .f32) (x7 : Vec Ideal S256 .f32) (x8 : Vec Ideal S256x256 .f32) (x9 : Vec Ideal S256 .f32)
  (x10 : Vec Ideal S1x8x64x64 .f32)

/-- Head `h`'s attention weights on a block, from the block's own vectors. -/
def attH (h : Fin 8) : FVec Ideal S32x64x64 .f32 :=
  headAtt x1 (sl h (k0_pay5 x0 x2 x3)) (sl h (k0_pay5 x0 x4 x5)) (mload x10 h)

/-- Head `h`'s mixed values on a block. -/
def mixH (h : Fin 8) : FVec Ideal S32x64x32 .f32 :=
  headMix (attH x0 x1 x2 x3 x4 x5 x10 h) (sl h (k0_pay5 x0 x6 x7))

/-- Head `h`'s attention weights are the specification's, at batch element `p` of the block. -/
theorem attH_apply (h : Fin 8) (p : Fin 32) (q k : Fin 64) :
    attH x0 x1 x2 x3 x4 x5 x10 h (ix3 p q k) = attArr x0 x1 x2 x3 x4 x5 x10 (ix4 p h q k) := by
  unfold attH
  rw [headAtt_apply]
  show _ = softRow _ k
  refine congrArg (fun L => softRow L k) (funext fun k' => ?_)
  simp only [sl_apply, pay5_apply, mload_apply]
  rfl

/-- Head `h`'s mixed values are the specification's. -/
theorem mixH_apply (h : Fin 8) (p : Fin 32) (q : Fin 64) (d : Fin 32) :
    mixH x0 x1 x2 x3 x4 x5 x6 x7 x10 h (ix3 p q d)
      = mixHead (fun l d => x0 (ix3 p l d)) (fun q k => x1 (ix3 p q k)) (fun e d => x2 (ix2 e d)) (fun e => x3 (ix1 e))
          (fun e d => x4 (ix2 e d)) (fun e => x5 (ix1 e)) (fun e d => x6 (ix2 e d)) (fun e => x7 (ix1 e))
          (fun h q k => x10 (ix4 (0 : Fin 1) h q k)) h q d := by
  unfold mixH
  rw [headMix_apply]
  refine Finset.sum_congr rfl fun k _ => ?_
  rw [attH_apply, sl_apply, pay5_apply]
  rfl

end

/-- Eight [32, 64, 32] blocks laid side by side along the feature axis: column 32·h + d is block `h` at lane `d`. -/
theorem cat_apply (ys : Fin 8 → FVec Ideal S32x64x32 .f32) (p : Fin 32) (l : Fin 64) (h : Fin 8) (d : Fin 32) :
    concatenate S32x64x256 2 [⟨S32x64x32, ys 0⟩, ⟨S32x64x32, ys 1⟩, ⟨S32x64x32, ys 2⟩, ⟨S32x64x32, ys 3⟩, ⟨S32x64x32, ys 4⟩, ⟨S32x64x32, ys 5⟩, ⟨S32x64x32, ys 6⟩, ⟨S32x64x32, ys 7⟩] concatenates_S32x64x32_S32x64x32_S32x64x32_S32x64x32_S32x64x32_S32x64x32_S32x64x32_S32x64x32_S32x64x256_d2 (ix3 p l (col h d))
      = ys h (ix3 p l d) := by
  match h with
  | ⟨0, _⟩ =>
    exact concatenate_apply_piece (2 : Fin S32x64x256.rank) [⟨S32x64x32, ys 0⟩, ⟨S32x64x32, ys 1⟩, ⟨S32x64x32, ys 2⟩, ⟨S32x64x32, ys 3⟩, ⟨S32x64x32, ys 4⟩, ⟨S32x64x32, ys 5⟩, ⟨S32x64x32, ys 6⟩, ⟨S32x64x32, ys 7⟩] concatenates_S32x64x32_S32x64x32_S32x64x32_S32x64x32_S32x64x32_S32x64x32_S32x64x32_S32x64x32_S32x64x256_d2 (ix3 p l (col ⟨0, by omega⟩ d)) 0 (by show (0 : Nat) < 8; decide) S32x64x32 (ys 0) rfl rfl 0 rfl (ix3 p l d)
      (fun b hb => by
        match b with
        | ⟨0, _⟩ => rfl
        | ⟨1, _⟩ => rfl
        | ⟨2, _⟩ => exact absurd rfl hb)
      (by show 0 + d.val = 0 * 32 + d.val; rfl)
  | ⟨1, _⟩ =>
    exact concatenate_apply_piece (2 : Fin S32x64x256.rank) [⟨S32x64x32, ys 0⟩, ⟨S32x64x32, ys 1⟩, ⟨S32x64x32, ys 2⟩, ⟨S32x64x32, ys 3⟩, ⟨S32x64x32, ys 4⟩, ⟨S32x64x32, ys 5⟩, ⟨S32x64x32, ys 6⟩, ⟨S32x64x32, ys 7⟩] concatenates_S32x64x32_S32x64x32_S32x64x32_S32x64x32_S32x64x32_S32x64x32_S32x64x32_S32x64x32_S32x64x256_d2 (ix3 p l (col ⟨1, by omega⟩ d)) 1 (by show (1 : Nat) < 8; decide) S32x64x32 (ys 1) rfl rfl 32 rfl (ix3 p l d)
      (fun b hb => by
        match b with
        | ⟨0, _⟩ => rfl
        | ⟨1, _⟩ => rfl
        | ⟨2, _⟩ => exact absurd rfl hb)
      (by show 32 + d.val = 1 * 32 + d.val; rfl)
  | ⟨2, _⟩ =>
    exact concatenate_apply_piece (2 : Fin S32x64x256.rank) [⟨S32x64x32, ys 0⟩, ⟨S32x64x32, ys 1⟩, ⟨S32x64x32, ys 2⟩, ⟨S32x64x32, ys 3⟩, ⟨S32x64x32, ys 4⟩, ⟨S32x64x32, ys 5⟩, ⟨S32x64x32, ys 6⟩, ⟨S32x64x32, ys 7⟩] concatenates_S32x64x32_S32x64x32_S32x64x32_S32x64x32_S32x64x32_S32x64x32_S32x64x32_S32x64x32_S32x64x256_d2 (ix3 p l (col ⟨2, by omega⟩ d)) 2 (by show (2 : Nat) < 8; decide) S32x64x32 (ys 2) rfl rfl 64 rfl (ix3 p l d)
      (fun b hb => by
        match b with
        | ⟨0, _⟩ => rfl
        | ⟨1, _⟩ => rfl
        | ⟨2, _⟩ => exact absurd rfl hb)
      (by show 64 + d.val = 2 * 32 + d.val; rfl)
  | ⟨3, _⟩ =>
    exact concatenate_apply_piece (2 : Fin S32x64x256.rank) [⟨S32x64x32, ys 0⟩, ⟨S32x64x32, ys 1⟩, ⟨S32x64x32, ys 2⟩, ⟨S32x64x32, ys 3⟩, ⟨S32x64x32, ys 4⟩, ⟨S32x64x32, ys 5⟩, ⟨S32x64x32, ys 6⟩, ⟨S32x64x32, ys 7⟩] concatenates_S32x64x32_S32x64x32_S32x64x32_S32x64x32_S32x64x32_S32x64x32_S32x64x32_S32x64x32_S32x64x256_d2 (ix3 p l (col ⟨3, by omega⟩ d)) 3 (by show (3 : Nat) < 8; decide) S32x64x32 (ys 3) rfl rfl 96 rfl (ix3 p l d)
      (fun b hb => by
        match b with
        | ⟨0, _⟩ => rfl
        | ⟨1, _⟩ => rfl
        | ⟨2, _⟩ => exact absurd rfl hb)
      (by show 96 + d.val = 3 * 32 + d.val; rfl)
  | ⟨4, _⟩ =>
    exact concatenate_apply_piece (2 : Fin S32x64x256.rank) [⟨S32x64x32, ys 0⟩, ⟨S32x64x32, ys 1⟩, ⟨S32x64x32, ys 2⟩, ⟨S32x64x32, ys 3⟩, ⟨S32x64x32, ys 4⟩, ⟨S32x64x32, ys 5⟩, ⟨S32x64x32, ys 6⟩, ⟨S32x64x32, ys 7⟩] concatenates_S32x64x32_S32x64x32_S32x64x32_S32x64x32_S32x64x32_S32x64x32_S32x64x32_S32x64x32_S32x64x256_d2 (ix3 p l (col ⟨4, by omega⟩ d)) 4 (by show (4 : Nat) < 8; decide) S32x64x32 (ys 4) rfl rfl 128 rfl (ix3 p l d)
      (fun b hb => by
        match b with
        | ⟨0, _⟩ => rfl
        | ⟨1, _⟩ => rfl
        | ⟨2, _⟩ => exact absurd rfl hb)
      (by show 128 + d.val = 4 * 32 + d.val; rfl)
  | ⟨5, _⟩ =>
    exact concatenate_apply_piece (2 : Fin S32x64x256.rank) [⟨S32x64x32, ys 0⟩, ⟨S32x64x32, ys 1⟩, ⟨S32x64x32, ys 2⟩, ⟨S32x64x32, ys 3⟩, ⟨S32x64x32, ys 4⟩, ⟨S32x64x32, ys 5⟩, ⟨S32x64x32, ys 6⟩, ⟨S32x64x32, ys 7⟩] concatenates_S32x64x32_S32x64x32_S32x64x32_S32x64x32_S32x64x32_S32x64x32_S32x64x32_S32x64x32_S32x64x256_d2 (ix3 p l (col ⟨5, by omega⟩ d)) 5 (by show (5 : Nat) < 8; decide) S32x64x32 (ys 5) rfl rfl 160 rfl (ix3 p l d)
      (fun b hb => by
        match b with
        | ⟨0, _⟩ => rfl
        | ⟨1, _⟩ => rfl
        | ⟨2, _⟩ => exact absurd rfl hb)
      (by show 160 + d.val = 5 * 32 + d.val; rfl)
  | ⟨6, _⟩ =>
    exact concatenate_apply_piece (2 : Fin S32x64x256.rank) [⟨S32x64x32, ys 0⟩, ⟨S32x64x32, ys 1⟩, ⟨S32x64x32, ys 2⟩, ⟨S32x64x32, ys 3⟩, ⟨S32x64x32, ys 4⟩, ⟨S32x64x32, ys 5⟩, ⟨S32x64x32, ys 6⟩, ⟨S32x64x32, ys 7⟩] concatenates_S32x64x32_S32x64x32_S32x64x32_S32x64x32_S32x64x32_S32x64x32_S32x64x32_S32x64x32_S32x64x256_d2 (ix3 p l (col ⟨6, by omega⟩ d)) 6 (by show (6 : Nat) < 8; decide) S32x64x32 (ys 6) rfl rfl 192 rfl (ix3 p l d)
      (fun b hb => by
        match b with
        | ⟨0, _⟩ => rfl
        | ⟨1, _⟩ => rfl
        | ⟨2, _⟩ => exact absurd rfl hb)
      (by show 192 + d.val = 6 * 32 + d.val; rfl)
  | ⟨7, _⟩ =>
    exact concatenate_apply_piece (2 : Fin S32x64x256.rank) [⟨S32x64x32, ys 0⟩, ⟨S32x64x32, ys 1⟩, ⟨S32x64x32, ys 2⟩, ⟨S32x64x32, ys 3⟩, ⟨S32x64x32, ys 4⟩, ⟨S32x64x32, ys 5⟩, ⟨S32x64x32, ys 6⟩, ⟨S32x64x32, ys 7⟩] concatenates_S32x64x32_S32x64x32_S32x64x32_S32x64x32_S32x64x32_S32x64x32_S32x64x32_S32x64x32_S32x64x256_d2 (ix3 p l (col ⟨7, by omega⟩ d)) 7 (by show (7 : Nat) < 8; decide) S32x64x32 (ys 7) rfl rfl 224 rfl (ix3 p l d)
      (fun b hb => by
        match b with
        | ⟨0, _⟩ => rfl
        | ⟨1, _⟩ => rfl
        | ⟨2, _⟩ => exact absurd rfl hb)
      (by show 224 + d.val = 7 * 32 + d.val; rfl)
  | ⟨_ + 8, hh⟩ => exact absurd hh (Nat.not_lt.2 (Nat.le_add_left _ _))

/-- The same at a feature column `e`: head e / 32, lane e % 32. -/
theorem cat_apply' (ys : Fin 8 → FVec Ideal S32x64x32 .f32) (p : Fin 32) (l : Fin 64) (e : Fin 256) :
    concatenate S32x64x256 2 [⟨S32x64x32, ys 0⟩, ⟨S32x64x32, ys 1⟩, ⟨S32x64x32, ys 2⟩, ⟨S32x64x32, ys 3⟩, ⟨S32x64x32, ys 4⟩, ⟨S32x64x32, ys 5⟩, ⟨S32x64x32, ys 6⟩, ⟨S32x64x32, ys 7⟩] concatenates_S32x64x32_S32x64x32_S32x64x32_S32x64x32_S32x64x32_S32x64x32_S32x64x32_S32x64x32_S32x64x256_d2 (ix3 p l e)
      = ys (headOf e) (ix3 p l (laneOf e)) := by
  have h := cat_apply ys p l (headOf e) (laneOf e)
  rwa [col_headOf_laneOf] at h

end Cert.Attn.K

end
-- ==== Proof.KOut.lean ====
/-
  What the body leaves in the two output blocks, read at one element.

  The attention block [32, 8, 64, 64] is written by eight stores, head `h` through the rectangle of slab `h`;
  the slabs tile the block, so the block is one function of its index: at (p, h, q, k) head `h`'s
  attention weights at (p, q, k), which are the specification's at batch element `p` of the block.
  The output block [32, 64, 256] is written by one store of the output map applied to the eight heads'
  mixed values laid side by side: at (p, l, e) it is Σ_d mix(p, l, d) · Wp(e, d) + bp(e).
  The loads of whole buffers read the buffers themselves.
-/
import proofs.«100361_j80771154969227_1_alg».proof.Proof.KBlock

set_option maxRecDepth 16384

noncomputable section

namespace Cert.Attn.K

open Cert.KernelIdeal Cert.KernelIdeal.Gen Idealize.ShloMosaic Idealize.ShloMosaic.ValueIdx

/-! ## Where each slab's rectangle puts a local index -/

theorem emb0 (x : S32x1x64x64.Idx) : (r0_5).emb x = ix4 (x 0) (⟨0, by omega⟩ : Fin 8) (x 2) (x 3) := by
  have h1 : (x 1).val = 0 := by have h : (x 1).val < 1 := (x 1).isLt; omega
  funext a
  apply Fin.ext
  match a with
  | ⟨0, _⟩ => show 0 + 1 * (x 0).val = (x 0).val; omega
  | ⟨1, _⟩ => show 0 + 1 * (x 1).val = 0; omega
  | ⟨2, _⟩ => show 0 + 1 * (x 2).val = (x 2).val; omega
  | ⟨3, _⟩ => show 0 + 1 * (x 3).val = (x 3).val; omega
theorem emb1 (x : S32x1x64x64.Idx) : (r0_7).emb x = ix4 (x 0) (⟨1, by omega⟩ : Fin 8) (x 2) (x 3) := by
  have h1 : (x 1).val = 0 := by have h : (x 1).val < 1 := (x 1).isLt; omega
  funext a
  apply Fin.ext
  match a with
  | ⟨0, _⟩ => show 0 + 1 * (x 0).val = (x 0).val; omega
  | ⟨1, _⟩ => show 1 + 1 * (x 1).val = 1; omega
  | ⟨2, _⟩ => show 0 + 1 * (x 2).val = (x 2).val; omega
  | ⟨3, _⟩ => show 0 + 1 * (x 3).val = (x 3).val; omega
theorem emb2 (x : S32x1x64x64.Idx) : (r0_9).emb x = ix4 (x 0) (⟨2, by omega⟩ : Fin 8) (x 2) (x 3) := by
  have h1 : (x 1).val = 0 := by have h : (x 1).val < 1 := (x 1).isLt; omega
  funext a
  apply Fin.ext
  match a with
  | ⟨0, _⟩ => show 0 + 1 * (x 0).val = (x 0).val; omega
  | ⟨1, _⟩ => show 2 + 1 * (x 1).val = 2; omega
  | ⟨2, _⟩ => show 0 + 1 * (x 2).val = (x 2).val; omega
  | ⟨3, _⟩ => show 0 + 1 * (x 3).val = (x 3).val; omega
theorem emb3 (x : S32x1x64x64.Idx) : (r0_11).emb x = ix4 (x 0) (⟨3, by omega⟩ : Fin 8) (x 2) (x 3) := by
  have h1 : (x 1).val = 0 := by have h : (x 1).val < 1 := (x 1).isLt; omega
  funext a
  apply Fin.ext
  match a with
  | ⟨0, _⟩ => show 0 + 1 * (x 0).val = (x 0).val; omega
  | ⟨1, _⟩ => show 3 + 1 * (x 1).val = 3; omega
  | ⟨2, _⟩ => show 0 + 1 * (x 2).val = (x 2).val; omega
  | ⟨3, _⟩ => show 0 + 1 * (x 3).val = (x 3).val; omega
theorem emb4 (x : S32x1x64x64.Idx) : (r0_13).emb x = ix4 (x 0) (⟨4, by omega⟩ : Fin 8) (x 2) (x 3) := by
  have h1 : (x 1).val = 0 := by have h : (x 1).val < 1 := (x 1).isLt; omega
  funext a
  apply Fin.ext
  match a with
  | ⟨0, _⟩ => show 0 + 1 * (x 0).val = (x 0).val; omega
  | ⟨1, _⟩ => show 4 + 1 * (x 1).val = 4; omega
  | ⟨2, _⟩ => show 0 + 1 * (x 2).val = (x 2).val; omega
  | ⟨3, _⟩ => show 0 + 1 * (x 3).val = (x 3).val; omega
theorem emb5 (x : S32x1x64x64.Idx) : (r0_15).emb x = ix4 (x 0) (⟨5, by omega⟩ : Fin 8) (x 2) (x 3) := by
  have h1 : (x 1).val = 0 := by have h : (x 1).val < 1 := (x 1).isLt; omega
  funext a
  apply Fin.ext
  match a with
  | ⟨0, _⟩ => show 0 + 1 * (x 0).val = (x 0).val; omega
  | ⟨1, _⟩ => show 5 + 1 * (x 1).val = 5; omega
  | ⟨2, _⟩ => show 0 + 1 * (x 2).val = (x 2).val; omega
  | ⟨3, _⟩ => show 0 + 1 * (x 3).val = (x 3).val; omega
theorem emb6 (x : S32x1x64x64.Idx) : (r0_17).emb x = ix4 (x 0) (⟨6, by omega⟩ : Fin 8) (x 2) (x 3) := by
  have h1 : (x 1).val = 0 := by have h : (x 1).val < 1 := (x 1).isLt; omega
  funext a
  apply Fin.ext
  match a with
  | ⟨0, _⟩ => show 0 + 1 * (x 0).val = (x 0).val; omega
  | ⟨1, _⟩ => show 6 + 1 * (x 1).val = 6; omega
  | ⟨2, _⟩ => show 0 + 1 * (x 2).val = (x 2).val; omega
  | ⟨3, _⟩ => show 0 + 1 * (x 3).val = (x 3).val; omega
theorem emb7 (x : S32x1x64x64.Idx) : (r0_19).emb x = ix4 (x 0) (⟨7, by omega⟩ : Fin 8) (x 2) (x 3) := by
  have h1 : (x 1).val = 0 := by have h : (x 1).val < 1 := (x 1).isLt; omega
  funext a
  apply Fin.ext
  match a with
  | ⟨0, _⟩ => show 0 + 1 * (x 0).val = (x 0).val; omega
  | ⟨1, _⟩ => show 7 + 1 * (x 1).val = 7; omega
  | ⟨2, _⟩ => show 0 + 1 * (x 2).val = (x 2).val; omega
  | ⟨3, _⟩ => show 0 + 1 * (x 3).val = (x 3).val; omega

/-! ## Loads of whole buffers -/

theorem z3 : (![0, 0, 0] : Fin 3 → Nat) = fun _ => 0 := by
  funext a; match a with | ⟨0, _⟩ => rfl | ⟨1, _⟩ => rfl | ⟨2, _⟩ => rfl
theorem z2 : (![0, 0] : Fin 2 → Nat) = fun _ => 0 := by
  funext a; match a with | ⟨0, _⟩ => rfl | ⟨1, _⟩ => rfl
theorem z1 : (![0] : Fin 1 → Nat) = fun _ => 0 := by
  funext a; match a with | ⟨0, _⟩ => rfl

section
variable (x0 : Vec Ideal S32x64x256 .f32) (x1 : Vec Ideal S32x64x64 .f32)
  (x2 : Vec Ideal S256x256 .f32) (x3 : Vec Ideal S256 .f32) (x4 : Vec Ideal S256x256 .f32) (x5 : Vec Ideal S256 .f32)
  (x6 : Vec Ideal S256x256 .f32) (x7 : Vec Ideal S256 .f32) (x8 : Vec Ideal S256x256 .f32) (x9 : Vec Ideal S256 .f32)
  (x10 : Vec Ideal S1x8x64x64 .f32)

theorem ld0 : View.ld x0 r0_0 = x0 := View.ld_unit_zero (S := S32x64x256) z3 _ x0
theorem ld1 : View.ld x1 r0_3 = x1 := View.ld_unit_zero (S := S32x64x64) z3 _ x1
theorem ldW (w : Vec Ideal S256x256 .f32) : View.ld w r0_1 = w := View.ld_unit_zero (S := S256x256) z2 _ w
theorem ldB (b : Vec Ideal S256 .f32) : View.ld b r0_2 = b := View.ld_unit_zero (S := S256) z1 _ b

/-! ## The attention block -/

theorem attPay0 : k0_pay12 x1 (k0_pay9 x0 x2 x3 x4 x5) (k0_pay10 (View.ld x10 r0_4)) = slab (attH x0 x1 x2 x3 x4 x5 x10 ⟨0, by omega⟩) := rfl
theorem attPay1 : k0_pay19 x1 (k0_pay16 (k0_pay5 x0 x2 x3) (k0_pay6 x0 x4 x5) (View.ld x10 r0_6)) (k0_pay17 (View.ld x10 r0_6)) = slab (attH x0 x1 x2 x3 x4 x5 x10 ⟨1, by omega⟩) := rfl
theorem attPay2 : k0_pay24 (k0_pay22 (k0_pay5 x0 x2 x3) (k0_pay6 x0 x4 x5) x1 (View.ld x10 r0_8)) = slab (attH x0 x1 x2 x3 x4 x5 x10 ⟨2, by omega⟩) := rfl
theorem attPay3 : k0_pay28 (k0_pay27 (k0_pay5 x0 x2 x3) (k0_pay6 x0 x4 x5) x1 (View.ld x10 r0_10)) = slab (attH x0 x1 x2 x3 x4 x5 x10 ⟨3, by omega⟩) := rfl
theorem attPay4 : k0_pay31 (k0_pay5 x0 x2 x3) (k0_pay6 x0 x4 x5) x1 (View.ld x10 r0_12) = slab (attH x0 x1 x2 x3 x4 x5 x10 ⟨4, by omega⟩) := rfl
theorem attPay5 : k0_pay37 x1 (k0_pay33 (k0_pay5 x0 x2 x3)) (k0_pay34 (k0_pay6 x0 x4 x5)) (constant S32x64x64 .f32 0x00000000#32) (View.ld x10 r0_14) = slab (attH x0 x1 x2 x3 x4 x5 x10 ⟨5, by omega⟩) := rfl
theorem attPay6 : k0_pay43 x1 (k0_pay40 (k0_pay5 x0 x2 x3) (k0_pay6 x0 x4 x5)) (k0_pay41 (View.ld x10 r0_16)) = slab (attH x0 x1 x2 x3 x4 x5 x10 ⟨6, by omega⟩) := rfl
theorem attPay7 : k0_pay2 x1 (k0_pay47 (k0_pay5 x0 x2 x3) (k0_pay6 x0 x4 x5) (View.ld x10 r0_18)) (k0_pay48 (View.ld x10 r0_18)) = slab (attH x0 x1 x2 x3 x4 x5 x10 ⟨7, by omega⟩) := rfl

/-- A slab of head `h` at a local index is the specification at the block index with head `h`. -/
theorem slabH_apply (h : Fin 8) (x : S32x1x64x64.Idx) :
    slab (attH x0 x1 x2 x3 x4 x5 x10 h) x = attArr x0 x1 x2 x3 x4 x5 x10 (ix4 (x 0) h (x 2) (x 3)) := by
  obtain ⟨p, u, q, k, rfl⟩ : ∃ (p : Fin 32) (u : Fin 1) (q k : Fin 64), x = ix4 p u q k := ⟨x 0, x 1, x 2, x 3, eq_ix4 x⟩
  rw [slab_apply, attH_apply]

/-- The attention block the body leaves, at (p, h, q, k). -/
theorem out12_apply (p : Fin 32) (h : Fin 8) (q k : Fin 64) :
    out0_12 (F := Ideal) x0 x1 x2 x3 x4 x5 x6 x7 x8 x9 x10 (ix4 p h q k) = attArr x0 x1 x2 x3 x4 x5 x10 (ix4 p h q k) := by
  unfold out0_12
  rw [ld0, ld1, ldW, ldW, ldB, ldB]
  refine View.canon_apply_of_pieces (Val := Elt Ideal) (S := S32x8x64x64) (e := .f32) (attArr x0 x1 x2 x3 x4 x5 x10 : S32x8x64x64.Idx → Elt Ideal .f32) _ ?_ (ix4 p h q k) (cover0_12 _ _ _ _ _ _ _ _ (ix4 p h q k))
  intro pc hpc
  simp only [List.mem_cons, List.mem_singleton, List.not_mem_nil, or_false] at hpc
  rcases hpc with rfl | rfl | rfl | rfl | rfl | rfl | rfl | rfl
  · intro x
    rw [attPay7, emb7]
    exact slabH_apply x0 x1 x2 x3 x4 x5 x10 _ x
  · intro x
    rw [attPay6, emb6]
    exact slabH_apply x0 x1 x2 x3 x4 x5 x10 _ x
  · intro x
    rw [attPay5, emb5]
    exact slabH_apply x0 x1 x2 x3 x4 x5 x10 _ x
  · intro x
    rw [attPay4, emb4]
    exact slabH_apply x0 x1 x2 x3 x4 x5 x10 _ x
  · intro x
    rw [attPay3, emb3]
    exact slabH_apply x0 x1 x2 x3 x4 x5 x10 _ x
  · intro x
    rw [attPay2, emb2]
    exact slabH_apply x0 x1 x2 x3 x4 x5 x10 _ x
  · intro x
    rw [attPay1, emb1]
    exact slabH_apply x0 x1 x2 x3 x4 x5 x10 _ x
  · intro x
    rw [attPay0, emb0]
    exact slabH_apply x0 x1 x2 x3 x4 x5 x10 _ x

/-! ## The output block -/

/-- The one store's payload is the output map applied to the eight heads' mixed values side by side. -/
theorem outPay :
    k0_pay3 x1 (k0_pay13 x1 (k0_pay8 x0 x6 x7) (k0_pay9 x0 x2 x3 x4 x5) (k0_pay10 (View.ld x10 r0_4)))
      (k0_pay20 x1 (k0_pay14 (k0_pay7 x0 x6 x7)) (k0_pay16 (k0_pay5 x0 x2 x3) (k0_pay6 x0 x4 x5) (View.ld x10 r0_6)) (k0_pay17 (View.ld x10 r0_6)))
      (k0_pay25 (k0_pay21 (k0_pay7 x0 x6 x7)) (k0_pay22 (k0_pay5 x0 x2 x3) (k0_pay6 x0 x4 x5) x1 (View.ld x10 r0_8)))
      (k0_pay29 (k0_pay26 (k0_pay7 x0 x6 x7)) (k0_pay27 (k0_pay5 x0 x2 x3) (k0_pay6 x0 x4 x5) x1 (View.ld x10 r0_10)))
      (k0_pay32 (k0_pay5 x0 x2 x3) (k0_pay6 x0 x4 x5) (k0_pay7 x0 x6 x7) x1 (View.ld x10 r0_12))
      (k0_pay38 x1 (k0_pay33 (k0_pay5 x0 x2 x3)) (k0_pay34 (k0_pay6 x0 x4 x5)) (k0_pay35 (k0_pay7 x0 x6 x7)) (constant S32x64x64 .f32 0x00000000#32) (View.ld x10 r0_14))
      (k0_pay44 x1 (k0_pay39 (k0_pay7 x0 x6 x7)) (k0_pay40 (k0_pay5 x0 x2 x3) (k0_pay6 x0 x4 x5)) (k0_pay41 (View.ld x10 r0_16)))
      (k0_pay45 (k0_pay7 x0 x6 x7)) (k0_pay47 (k0_pay5 x0 x2 x3) (k0_pay6 x0 x4 x5) (View.ld x10 r0_18)) (k0_pay48 (View.ld x10 r0_18)) x8 x9
    = k0_pay5 (concatenate S32x64x256 2 [⟨S32x64x32, mixH x0 x1 x2 x3 x4 x5 x6 x7 x10 0⟩, ⟨S32x64x32, mixH x0 x1 x2 x3 x4 x5 x6 x7 x10 1⟩, ⟨S32x64x32, mixH x0 x1 x2 x3 x4 x5 x6 x7 x10 2⟩, ⟨S32x64x32, mixH x0 x1 x2 x3 x4 x5 x6 x7 x10 3⟩, ⟨S32x64x32, mixH x0 x1 x2 x3 x4 x5 x6 x7 x10 4⟩, ⟨S32x64x32, mixH x0 x1 x2 x3 x4 x5 x6 x7 x10 5⟩, ⟨S32x64x32, mixH x0 x1 x2 x3 x4 x5 x6 x7 x10 6⟩, ⟨S32x64x32, mixH x0 x1 x2 x3 x4 x5 x6 x7 x10 7⟩] concatenates_S32x64x32_S32x64x32_S32x64x32_S32x64x32_S32x64x32_S32x64x32_S32x64x32_S32x64x32_S32x64x256_d2) x8 x9 := rfl

/-- The output block the body leaves, at (p, l, e). -/
theorem out11_apply (p : Fin 32) (l : Fin 64) (e : Fin 256) :
    out0_11 (F := Ideal) x0 x1 x2 x3 x4 x5 x6 x7 x8 x9 x10 (ix3 p l e) = outArr x0 x1 x2 x3 x4 x5 x6 x7 x8 x9 x10 (ix3 p l e) := by
  unfold out0_11
  rw [View.canon_unit_zero z3, ld0, ld1, ldW, ldW, ldW, ldW, ldB, ldB, ldB, ldB, outPay, pay5_apply]
  show _ = (∑ d : Fin 256, mix _ _ _ _ _ _ _ _ _ l d * x8 (ix2 e d)) + x9 (ix1 e)
  refine congrArg (· + x9 (ix1 e)) (Finset.sum_congr rfl fun d _ => ?_)
  rw [cat_apply' (mixH x0 x1 x2 x3 x4 x5 x6 x7 x10) p l d, mixH_apply]
  rfl

end

end Cert.Attn.K

end
-- ==== Proof.BlocksRead.lean ====
/-
  The kernel's blocks, read at coordinates.

  One region on a grid of 32 points; point `t` works on batch rows `32·t … 32·t + 31`. Here: where each window's
  block sits in its array (the printed index maps, decided over the grid), each input block read at plain
  coordinates as the argument array's entry, and where an element of an output block lands in its array.
-/
import proofs.«100361_j80771154969227_1_alg».proof.Proof.Gen.KernelIdeal.Value
import proofs.«100361_j80771154969227_1_alg».proof.Proof.Spec

noncomputable section

namespace Cert.Attn.Blocks

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## Where the blocks sit

Grid point `t` (of 32) works on batch rows `32·t … 32·t + 31`: the two batched inputs and the two outputs
move with `t` along the batch axis and sit at offset zero on every other axis; the weights, the biases and the
mask logits are read whole at every point. -/

/-- The grid has 32 points. -/
theorem N_eq : cfg0.N = 32 := N_0

/-- Batch row `32·t + p` of the arrays: row `p` of the block of point `t`. -/
def row (t : Fin cfg0.N) (p : Fin 32) : Fin 1024 :=
  ⟨32 * t.val + p.val, by have h := t.isLt; have hN : cfg0.N = 32 := N_eq; omega⟩

theorem row_val (t : Fin cfg0.N) (p : Fin 32) : (row t p).val = 32 * t.val + p.val := rfl

/-- The block index of the four moving windows is `(t, 0, …)`, decided over the grid. -/
theorem idx_moving : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_11.index t (0 : Fin 3) = t.val ∧ win0_11.index t (1 : Fin 3) = 0 ∧ win0_11.index t (2 : Fin 3) = 0)
    ∧ (win0_12.index t (0 : Fin 4) = t.val ∧ win0_12.index t (1 : Fin 4) = 0 ∧ win0_12.index t (2 : Fin 4) = 0
        ∧ win0_12.index t (3 : Fin 4) = 0) :=
  (by decide +kernel : ∀ t : Fin grid0.N, _)

/-- The block index of every whole-array window is zero on every axis, decided over the grid. -/
theorem idx_fixed : ∀ t : Fin cfg0.N,
    (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ (win0_8.index t (0 : Fin 2) = 0 ∧ win0_8.index t (1 : Fin 2) = 0)
    ∧ win0_9.index t (0 : Fin 1) = 0
    ∧ (win0_10.index t (0 : Fin 4) = 0 ∧ win0_10.index t (1 : Fin 4) = 0 ∧ win0_10.index t (2 : Fin 4) = 0
        ∧ win0_10.index t (3 : Fin 4) = 0) :=
  (by decide +kernel : ∀ t : Fin grid0.N, _)

/-! ## The input blocks read at coordinates -/

/-- Row `p` of the hidden-state block of point `t` is row `32·t + p` of the array. -/
theorem iblk0_apply (c : Dev nD) (t : Fin cfg0.N) (p : Fin 32) (l : Fin 64) (d : Fin 256) :
    (iblk m c 0 t : Vec Ideal S32x64x256 .f32) (ix3 p l d)
      = (V m c main_arg0 : S1024x64x256.Idx → EReal) (ix3 (row t p) l d) := by
  obtain ⟨⟨e0, e1, e2⟩, -⟩ := idx_moving t
  unfold iblk
  rw [View.read_apply]
  show V m c main_arg0 _ = V m c main_arg0 _
  congr 1
  funext a
  apply Fin.ext
  match a with
  | ⟨0, _⟩ => show win0_0.index t (0 : Fin 3) * 32 + 1 * p.val = 32 * t.val + p.val; rw [e0]; omega
  | ⟨1, _⟩ => show win0_0.index t (1 : Fin 3) * 64 + 1 * l.val = l.val; rw [e1]; omega
  | ⟨2, _⟩ => show win0_0.index t (2 : Fin 3) * 256 + 1 * d.val = d.val; rw [e2]; omega

/-- Row `p` of the graph block of point `t` is row `32·t + p` of the array. -/
theorem iblk1_apply (c : Dev nD) (t : Fin cfg0.N) (p : Fin 32) (q k : Fin 64) :
    (iblk m c 1 t : Vec Ideal S32x64x64 .f32) (ix3 p q k)
      = (V m c main_arg1 : S1024x64x64.Idx → EReal) (ix3 (row t p) q k) := by
  obtain ⟨-, ⟨e0, e1, e2⟩, -⟩ := idx_moving t
  unfold iblk
  rw [View.read_apply]
  show V m c main_arg1 _ = V m c main_arg1 _
  congr 1
  funext a
  apply Fin.ext
  match a with
  | ⟨0, _⟩ => show win0_1.index t (0 : Fin 3) * 32 + 1 * p.val = 32 * t.val + p.val; rw [e0]; omega
  | ⟨1, _⟩ => show win0_1.index t (1 : Fin 3) * 64 + 1 * q.val = q.val; rw [e1]; omega
  | ⟨2, _⟩ => show win0_1.index t (2 : Fin 3) * 64 + 1 * k.val = k.val; rw [e2]; omega

/-- The query weights' block is the whole array at every point. -/
theorem iblk2_eq (c : Dev nD) (t : Fin cfg0.N) :
    (iblk m c 2 t : Vec Ideal S256x256 .f32) = (V m c main_arg2 : S256x256.Idx → EReal) := by
  obtain ⟨⟨e0, e1⟩, -, -, -, -, -, -, -, -⟩ := idx_fixed t
  funext j
  unfold iblk
  rw [View.read_apply]
  show V m c main_arg2 _ = V m c main_arg2 j
  congr 1
  funext a
  apply Fin.ext
  match a with
  | ⟨0, _⟩ => show win0_2.index t (0 : Fin 2) * 256 + 1 * (j 0).val = (j 0).val; rw [e0]; omega
  | ⟨1, _⟩ => show win0_2.index t (1 : Fin 2) * 256 + 1 * (j 1).val = (j 1).val; rw [e1]; omega

/-- The query bias's block is the whole array at every point. -/
theorem iblk3_eq (c : Dev nD) (t : Fin cfg0.N) :
    (iblk m c 3 t : Vec Ideal S256 .f32) = (V m c main_arg3 : S256.Idx → EReal) := by
  obtain ⟨-, e0, -, -, -, -, -, -, -⟩ := idx_fixed t
  funext j
  unfold iblk
  rw [View.read_apply]
  show V m c main_arg3 _ = V m c main_arg3 j
  congr 1
  funext a
  apply Fin.ext
  match a with
  | ⟨0, _⟩ => show win0_3.index t (0 : Fin 1) * 256 + 1 * (j 0).val = (j 0).val; rw [e0]; omega

/-- The key weights' block is the whole array at every point. -/
theorem iblk4_eq (c : Dev nD) (t : Fin cfg0.N) :
    (iblk m c 4 t : Vec Ideal S256x256 .f32) = (V m c main_arg4 : S256x256.Idx → EReal) := by
  obtain ⟨-, -, ⟨e0, e1⟩, -, -, -, -, -, -⟩ := idx_fixed t
  funext j
  unfold iblk
  rw [View.read_apply]
  show V m c main_arg4 _ = V m c main_arg4 j
  congr 1
  funext a
  apply Fin.ext
  match a with
  | ⟨0, _⟩ => show win0_4.index t (0 : Fin 2) * 256 + 1 * (j 0).val = (j 0).val; rw [e0]; omega
  | ⟨1, _⟩ => show win0_4.index t (1 : Fin 2) * 256 + 1 * (j 1).val = (j 1).val; rw [e1]; omega

/-- The key bias's block is the whole array at every point. -/
theorem iblk5_eq (c : Dev nD) (t : Fin cfg0.N) :
    (iblk m c 5 t : Vec Ideal S256 .f32) = (V m c main_arg5 : S256.Idx → EReal) := by
  obtain ⟨-, -, -, e0, -, -, -, -, -⟩ := idx_fixed t
  funext j
  unfold iblk
  rw [View.read_apply]
  show V m c main_arg5 _ = V m c main_arg5 j
  congr 1
  funext a
  apply Fin.ext
  match a with
  | ⟨0, _⟩ => show win0_5.index t (0 : Fin 1) * 256 + 1 * (j 0).val = (j 0).val; rw [e0]; omega

/-- The value weights' block is the whole array at every point. -/
theorem iblk6_eq (c : Dev nD) (t : Fin cfg0.N) :
    (iblk m c 6 t : Vec Ideal S256x256 .f32) = (V m c main_arg6 : S256x256.Idx → EReal) := by
  obtain ⟨-, -, -, -, ⟨e0, e1⟩, -, -, -, -⟩ := idx_fixed t
  funext j
  unfold iblk
  rw [View.read_apply]
  show V m c main_arg6 _ = V m c main_arg6 j
  congr 1
  funext a
  apply Fin.ext
  match a with
  | ⟨0, _⟩ => show win0_6.index t (0 : Fin 2) * 256 + 1 * (j 0).val = (j 0).val; rw [e0]; omega
  | ⟨1, _⟩ => show win0_6.index t (1 : Fin 2) * 256 + 1 * (j 1).val = (j 1).val; rw [e1]; omega

/-- The value bias's block is the whole array at every point. -/
theorem iblk7_eq (c : Dev nD) (t : Fin cfg0.N) :
    (iblk m c 7 t : Vec Ideal S256 .f32) = (V m c main_arg7 : S256.Idx → EReal) := by
  obtain ⟨-, -, -, -, -, e0, -, -, -⟩ := idx_fixed t
  funext j
  unfold iblk
  rw [View.read_apply]
  show V m c main_arg7 _ = V m c main_arg7 j
  congr 1
  funext a
  apply Fin.ext
  match a with
  | ⟨0, _⟩ => show win0_7.index t (0 : Fin 1) * 256 + 1 * (j 0).val = (j 0).val; rw [e0]; omega

/-- The output weights' block is the whole array at every point. -/
theorem iblk8_eq (c : Dev nD) (t : Fin cfg0.N) :
    (iblk m c 8 t : Vec Ideal S256x256 .f32) = (V m c main_arg8 : S256x256.Idx → EReal) := by
  obtain ⟨-, -, -, -, -, -, ⟨e0, e1⟩, -, -⟩ := idx_fixed t
  funext j
  unfold iblk
  rw [View.read_apply]
  show V m c main_arg8 _ = V m c main_arg8 j
  congr 1
  funext a
  apply Fin.ext
  match a with
  | ⟨0, _⟩ => show win0_8.index t (0 : Fin 2) * 256 + 1 * (j 0).val = (j 0).val; rw [e0]; omega
  | ⟨1, _⟩ => show win0_8.index t (1 : Fin 2) * 256 + 1 * (j 1).val = (j 1).val; rw [e1]; omega

/-- The output bias's block is the whole array at every point. -/
theorem iblk9_eq (c : Dev nD) (t : Fin cfg0.N) :
    (iblk m c 9 t : Vec Ideal S256 .f32) = (V m c main_arg9 : S256.Idx → EReal) := by
  obtain ⟨-, -, -, -, -, -, -, e0, -⟩ := idx_fixed t
  funext j
  unfold iblk
  rw [View.read_apply]
  show V m c main_arg9 _ = V m c main_arg9 j
  congr 1
  funext a
  apply Fin.ext
  match a with
  | ⟨0, _⟩ => show win0_9.index t (0 : Fin 1) * 256 + 1 * (j 0).val = (j 0).val; rw [e0]; omega

/-- The mask logits' block is the whole array at every point. -/
theorem iblk10_eq (c : Dev nD) (t : Fin cfg0.N) :
    (iblk m c 10 t : Vec Ideal S1x8x64x64 .f32) = (V m c main_arg10 : S1x8x64x64.Idx → EReal) := by
  obtain ⟨-, -, -, -, -, -, -, -, ⟨e0, e1, e2, e3⟩⟩ := idx_fixed t
  funext j
  unfold iblk
  rw [View.read_apply]
  show V m c main_arg10 _ = V m c main_arg10 j
  congr 1
  funext a
  apply Fin.ext
  match a with
  | ⟨0, _⟩ => show win0_10.index t (0 : Fin 4) * 1 + 1 * (j 0).val = (j 0).val; rw [e0]; omega
  | ⟨1, _⟩ => show win0_10.index t (1 : Fin 4) * 8 + 1 * (j 1).val = (j 1).val; rw [e1]; omega
  | ⟨2, _⟩ => show win0_10.index t (2 : Fin 4) * 64 + 1 * (j 2).val = (j 2).val; rw [e2]; omega
  | ⟨3, _⟩ => show win0_10.index t (3 : Fin 4) * 64 + 1 * (j 3).val = (j 3).val; rw [e3]; omega

/-! ## Where an output block's element lands -/

/-- Element `(p, l, e)` of the output-row block of point `t` is element `(32·t + p, l, e)` of the array. -/
theorem emb11 (t : Fin cfg0.N) (p : Fin 32) (l : Fin 64) (e : Fin 256) :
    ((cfg0.win 11).blk t).view.emb (ix3 p l e) = (ix3 (row t p) l e : S1024x64x256.Idx) := by
  obtain ⟨-, -, ⟨e0, e1, e2⟩, -⟩ := idx_moving t
  funext a
  apply Fin.ext
  match a with
  | ⟨0, _⟩ => show win0_11.index t (0 : Fin 3) * 32 + 1 * p.val = 32 * t.val + p.val; rw [e0]; omega
  | ⟨1, _⟩ => show win0_11.index t (1 : Fin 3) * 64 + 1 * l.val = l.val; rw [e1]; omega
  | ⟨2, _⟩ => show win0_11.index t (2 : Fin 3) * 256 + 1 * e.val = e.val; rw [e2]; omega

/-- Element `(p, h, q, k)` of the attention block of point `t` is element `(32·t + p, h, q, k)` of the array. -/
theorem emb12 (t : Fin cfg0.N) (p : Fin 32) (h : Fin 8) (q k : Fin 64) :
    ((cfg0.win 12).blk t).view.emb (ix4 p h q k) = (ix4 (row t p) h q k : S1024x8x64x64.Idx) := by
  obtain ⟨-, -, -, e0, e1, e2, e3⟩ := idx_moving t
  funext a
  apply Fin.ext
  match a with
  | ⟨0, _⟩ => show win0_12.index t (0 : Fin 4) * 32 + 1 * p.val = 32 * t.val + p.val; rw [e0]; omega
  | ⟨1, _⟩ => show win0_12.index t (1 : Fin 4) * 8 + 1 * h.val = h.val; rw [e1]; omega
  | ⟨2, _⟩ => show win0_12.index t (2 : Fin 4) * 64 + 1 * q.val = q.val; rw [e2]; omega
  | ⟨3, _⟩ => show win0_12.index t (3 : Fin 4) * 64 + 1 * k.val = k.val; rw [e3]; omega

/-- Every batch row is row `n % 32` of the block of point `n / 32`. -/
theorem row_div_mod (n : Fin 1024) :
    row ⟨n.val / 32, by rw [N_eq]; omega⟩ ⟨n.val % 32, Nat.mod_lt _ (by omega)⟩ = n := by
  apply Fin.ext; show 32 * (n.val / 32) + n.val % 32 = n.val; omega

end Cert.Attn.Blocks

end
-- ==== Proof.BlocksAtt.lean ====
/-
  The attention-weight array after the kernel's run, from what one grid point computes.

  Given what the body leaves in the attention block as a function of its eleven input blocks (a hypothesis here),
  point `t` writes back block `t` of one whole-array function of the arguments, the 32 blocks cover the array,
  and so the array ends holding that function.
-/
import proofs.«100361_j80771154969227_1_alg».proof.Proof.Gen.KernelIdeal.Value
import proofs.«100361_j80771154969227_1_alg».proof.Proof.Spec
import proofs.«100361_j80771154969227_1_alg».proof.Proof.BlocksRead

noncomputable section

namespace Cert.Attn.Blocks

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The attention weights depend on the batch row only through that row -/

/-- Two families of argument arrays that agree on one batch row each (and whose unbatched arrays are equal) give the
    same attention weights on those rows. -/
theorem attArr_congr {B B' : Nat}
    (a0 : (⟨3, ![B, 64, 256]⟩ : Shape).Idx → EReal) (a0' : (⟨3, ![B', 64, 256]⟩ : Shape).Idx → EReal)
    (a1 : (⟨3, ![B, 64, 64]⟩ : Shape).Idx → EReal) (a1' : (⟨3, ![B', 64, 64]⟩ : Shape).Idx → EReal)
    (a2 a2' : (⟨2, ![256, 256]⟩ : Shape).Idx → EReal) (a3 a3' : (⟨1, ![256]⟩ : Shape).Idx → EReal)
    (a4 a4' : (⟨2, ![256, 256]⟩ : Shape).Idx → EReal) (a5 a5' : (⟨1, ![256]⟩ : Shape).Idx → EReal)
    (a10 a10' : (⟨4, ![1, 8, 64, 64]⟩ : Shape).Idx → EReal)
    (p : Fin B) (p' : Fin B')
    (e0 : ∀ l d, a0 (ix3 p l d) = a0' (ix3 p' l d)) (e1 : ∀ q k, a1 (ix3 p q k) = a1' (ix3 p' q k))
    (e2 : a2 = a2') (e3 : a3 = a3') (e4 : a4 = a4') (e5 : a5 = a5') (e10 : a10 = a10')
    (h : Fin 8) (q k : Fin 64) :
    attArr a0 a1 a2 a3 a4 a5 a10 (ix4 p h q k) = attArr a0' a1' a2' a3' a4' a5' a10' (ix4 p' h q k) := by
  subst e2 e3 e4 e5 e10
  show att (fun l d => a0 (ix3 p l d)) (fun q k => a1 (ix3 p q k)) _ _ _ _ _ h q k
    = att (fun l d => a0' (ix3 p' l d)) (fun q k => a1' (ix3 p' q k)) _ _ _ _ _ h q k
  rw [show (fun l d => a0 (ix3 p l d)) = fun l d => a0' (ix3 p' l d) from funext fun l => funext fun d => e0 l d,
    show (fun q k => a1 (ix3 p q k)) = fun q k => a1' (ix3 p' q k) from funext fun q => funext fun k => e1 q k]

/-! ## What a point writes back, and the array after the run -/

/-- The attention weights as one function of the argument arrays as the region finds them. -/
abbrev attG (c : Dev nD) : S1024x8x64x64.Idx → EReal :=
  attArr (V m c main_arg0) (V m c main_arg1) (V m c main_arg2) (V m c main_arg3) (V m c main_arg4) (V m c main_arg5)
    (V m c main_arg10)

/-- What point `t` writes back to the attention array is block `t` of `attG`. -/
theorem flushed12_eq (h12 : ∀ (x0 : Vec Ideal S32x64x256 .f32) (x1 : Vec Ideal S32x64x64 .f32) (x2 : Vec Ideal S256x256 .f32) (x3 : Vec Ideal S256 .f32) (x4 : Vec Ideal S256x256 .f32) (x5 : Vec Ideal S256 .f32) (x6 : Vec Ideal S256x256 .f32) (x7 : Vec Ideal S256 .f32) (x8 : Vec Ideal S256x256 .f32) (x9 : Vec Ideal S256 .f32) (x10 : Vec Ideal S1x8x64x64 .f32) (p : Fin 32) (h : Fin 8) (q k : Fin 64),
        out0_12 (F := Ideal) x0 x1 x2 x3 x4 x5 x6 x7 x8 x9 x10 (ix4 p h q k)
          = Cert.Attn.attArr x0 x1 x2 x3 x4 x5 x10 (ix4 p h q k))
    (c : Dev nD) (t : Fin cfg0.N) :
    (dats m 0 c).flushed 12 t = ((cfg0.win 12).blk t).view.read (Elt Ideal) (attG m c) := by
  rw [Value.flushed12]
  funext j
  rw [View.read_apply]
  obtain ⟨p, h, q, k, rfl⟩ : ∃ (p : Fin 32) (h : Fin 8) (q k : Fin 64), j = ix4 p h q k :=
    ⟨j 0, j 1, j 2, j 3, eq_ix4 (n0 := 32) (n1 := 8) (n2 := 64) (n3 := 64) j⟩
  rw [emb12]
  show out0_12 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix4 p h q k)
    = attG m c (ix4 (row t p) h q k)
  refine (h12 (iblk m c 0 t) (iblk m c 1 t) (iblk m c 2 t) (iblk m c 3 t) (iblk m c 4 t) (iblk m c 5 t)
      (iblk m c 6 t) (iblk m c 7 t) (iblk m c 8 t) (iblk m c 9 t) (iblk m c 10 t) p h q k).trans ?_
  exact attArr_congr (B := 32) (B' := 1024) (iblk m c 0 t) (V m c main_arg0) (iblk m c 1 t) (V m c main_arg1)
    (iblk m c 2 t) (V m c main_arg2) (iblk m c 3 t) (V m c main_arg3) (iblk m c 4 t) (V m c main_arg4)
    (iblk m c 5 t) (V m c main_arg5) (iblk m c 10 t) (V m c main_arg10) p (row t p)
    (iblk0_apply m c t p) (iblk1_apply m c t p) (iblk2_eq m c t) (iblk3_eq m c t) (iblk4_eq m c t) (iblk5_eq m c t)
    (iblk10_eq m c t) h q k

/-- Every index of the attention array is in some point's block: batch row `n` in the block of point `n / 32`. -/
theorem cover12 (i : S1024x8x64x64.Idx) :
    ∃ t : Fin cfg0.N, (cfg0.win 12).flush t = true ∧ i ∈ ((cfg0.win 12).blk t).view.set := by
  obtain ⟨n, h, q, k, rfl⟩ : ∃ (n : Fin 1024) (h : Fin 8) (q k : Fin 64), i = ix4 n h q k :=
    ⟨i 0, i 1, i 2, i 3, eq_ix4 (n0 := 1024) (n1 := 8) (n2 := 64) (n3 := 64) i⟩
  have hlt : n.val / 32 < cfg0.N := by rw [N_eq]; omega
  have hmem := ((cfg0.win 12).blk ⟨n.val / 32, hlt⟩).view.emb_mem_set
    (ix4 (⟨n.val % 32, Nat.mod_lt _ (by omega)⟩ : Fin 32) h q k)
  rw [emb12, row_div_mod] at hmem
  exact ⟨⟨n.val / 32, hlt⟩, flush0_12 _, hmem⟩

/-- The attention array after the run is `attG` of the argument arrays. -/
theorem final12 (c : Dev nD) (h12 : ∀ (x0 : Vec Ideal S32x64x256 .f32) (x1 : Vec Ideal S32x64x64 .f32) (x2 : Vec Ideal S256x256 .f32) (x3 : Vec Ideal S256 .f32) (x4 : Vec Ideal S256x256 .f32) (x5 : Vec Ideal S256 .f32) (x6 : Vec Ideal S256x256 .f32) (x7 : Vec Ideal S256 .f32) (x8 : Vec Ideal S256x256 .f32) (x9 : Vec Ideal S256 .f32) (x10 : Vec Ideal S1x8x64x64 .f32) (p : Fin 32) (h : Fin 8) (q k : Fin 64),
        out0_12 (F := Ideal) x0 x1 x2 x3 x4 x5 x6 x7 x8 x9 x10 (ix4 p h q k)
          = Cert.Attn.attArr x0 x1 x2 x3 x4 x5 x10 (ix4 p h q k)) :
    (dats m 0 c).arrAt 12 cfg0.N
      = Cert.Attn.attArr (V m c main_arg0) (V m c main_arg1) (V m c main_arg2) (V m c main_arg3) (V m c main_arg4)
          (V m c main_arg5) (V m c main_arg10) :=
  (dats m 0 c).arrAt_eq_of_cover 12 (attG m c) (fun t _ => flushed12_eq m h12 c t) cover12

end Cert.Attn.Blocks

end
-- ==== Proof.BlocksOut.lean ====
/-
  The output-row array after the kernel's run, from what one grid point computes.

  Given what the body leaves in the output-row block as a function of its eleven input blocks (a hypothesis here),
  point `t` writes back block `t` of one whole-array function of the arguments, the 32 blocks cover the array,
  and so the array ends holding that function.
-/
import proofs.«100361_j80771154969227_1_alg».proof.Proof.Gen.KernelIdeal.Value
import proofs.«100361_j80771154969227_1_alg».proof.Proof.Spec
import proofs.«100361_j80771154969227_1_alg».proof.Proof.BlocksRead

noncomputable section

namespace Cert.Attn.Blocks

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The output rows depend on the batch row only through that row -/

/-- Two families of argument arrays that agree on one batch row each (and whose unbatched arrays are equal) give the
    same output rows on those batch rows. -/
theorem outArr_congr {B B' : Nat}
    (a0 : (⟨3, ![B, 64, 256]⟩ : Shape).Idx → EReal) (a0' : (⟨3, ![B', 64, 256]⟩ : Shape).Idx → EReal)
    (a1 : (⟨3, ![B, 64, 64]⟩ : Shape).Idx → EReal) (a1' : (⟨3, ![B', 64, 64]⟩ : Shape).Idx → EReal)
    (a2 a2' : (⟨2, ![256, 256]⟩ : Shape).Idx → EReal) (a3 a3' : (⟨1, ![256]⟩ : Shape).Idx → EReal)
    (a4 a4' : (⟨2, ![256, 256]⟩ : Shape).Idx → EReal) (a5 a5' : (⟨1, ![256]⟩ : Shape).Idx → EReal)
    (a6 a6' : (⟨2, ![256, 256]⟩ : Shape).Idx → EReal) (a7 a7' : (⟨1, ![256]⟩ : Shape).Idx → EReal)
    (a8 a8' : (⟨2, ![256, 256]⟩ : Shape).Idx → EReal) (a9 a9' : (⟨1, ![256]⟩ : Shape).Idx → EReal)
    (a10 a10' : (⟨4, ![1, 8, 64, 64]⟩ : Shape).Idx → EReal)
    (p : Fin B) (p' : Fin B')
    (e0 : ∀ l d, a0 (ix3 p l d) = a0' (ix3 p' l d)) (e1 : ∀ q k, a1 (ix3 p q k) = a1' (ix3 p' q k))
    (e2 : a2 = a2') (e3 : a3 = a3') (e4 : a4 = a4') (e5 : a5 = a5') (e6 : a6 = a6') (e7 : a7 = a7')
    (e8 : a8 = a8') (e9 : a9 = a9') (e10 : a10 = a10')
    (l : Fin 64) (e : Fin 256) :
    outArr a0 a1 a2 a3 a4 a5 a6 a7 a8 a9 a10 (ix3 p l e)
      = outArr a0' a1' a2' a3' a4' a5' a6' a7' a8' a9' a10' (ix3 p' l e) := by
  subst e2 e3 e4 e5 e6 e7 e8 e9 e10
  show outRow (fun l d => a0 (ix3 p l d)) (fun q k => a1 (ix3 p q k)) _ _ _ _ _ _ _ _ _ l e
    = outRow (fun l d => a0' (ix3 p' l d)) (fun q k => a1' (ix3 p' q k)) _ _ _ _ _ _ _ _ _ l e
  rw [show (fun l d => a0 (ix3 p l d)) = fun l d => a0' (ix3 p' l d) from funext fun l => funext fun d => e0 l d,
    show (fun q k => a1 (ix3 p q k)) = fun q k => a1' (ix3 p' q k) from funext fun q => funext fun k => e1 q k]

/-! ## What a point writes back, and the array after the run -/

/-- The output rows as one function of the argument arrays as the region finds them. -/
abbrev outG (c : Dev nD) : S1024x64x256.Idx → EReal :=
  outArr (V m c main_arg0) (V m c main_arg1) (V m c main_arg2) (V m c main_arg3) (V m c main_arg4) (V m c main_arg5)
    (V m c main_arg6) (V m c main_arg7) (V m c main_arg8) (V m c main_arg9) (V m c main_arg10)

/-- What point `t` writes back to the output-row array is block `t` of `outG`. -/
theorem flushed11_eq (h11 : ∀ (x0 : Vec Ideal S32x64x256 .f32) (x1 : Vec Ideal S32x64x64 .f32) (x2 : Vec Ideal S256x256 .f32) (x3 : Vec Ideal S256 .f32) (x4 : Vec Ideal S256x256 .f32) (x5 : Vec Ideal S256 .f32) (x6 : Vec Ideal S256x256 .f32) (x7 : Vec Ideal S256 .f32) (x8 : Vec Ideal S256x256 .f32) (x9 : Vec Ideal S256 .f32) (x10 : Vec Ideal S1x8x64x64 .f32) (p : Fin 32) (l : Fin 64) (e : Fin 256),
        out0_11 (F := Ideal) x0 x1 x2 x3 x4 x5 x6 x7 x8 x9 x10 (ix3 p l e)
          = Cert.Attn.outArr x0 x1 x2 x3 x4 x5 x6 x7 x8 x9 x10 (ix3 p l e))
    (c : Dev nD) (t : Fin cfg0.N) :
    (dats m 0 c).flushed 11 t = ((cfg0.win 11).blk t).view.read (Elt Ideal) (outG m c) := by
  rw [Value.flushed11]
  funext j
  rw [View.read_apply]
  obtain ⟨p, l, e, rfl⟩ : ∃ (p : Fin 32) (l : Fin 64) (e : Fin 256), j = ix3 p l e :=
    ⟨j 0, j 1, j 2, eq_ix3 (n0 := 32) (n1 := 64) (n2 := 256) j⟩
  rw [emb11]
  show out0_11 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix3 p l e)
    = outG m c (ix3 (row t p) l e)
  refine (h11 (iblk m c 0 t) (iblk m c 1 t) (iblk m c 2 t) (iblk m c 3 t) (iblk m c 4 t) (iblk m c 5 t)
      (iblk m c 6 t) (iblk m c 7 t) (iblk m c 8 t) (iblk m c 9 t) (iblk m c 10 t) p l e).trans ?_
  exact outArr_congr (B := 32) (B' := 1024) (iblk m c 0 t) (V m c main_arg0) (iblk m c 1 t) (V m c main_arg1)
    (iblk m c 2 t) (V m c main_arg2) (iblk m c 3 t) (V m c main_arg3) (iblk m c 4 t) (V m c main_arg4)
    (iblk m c 5 t) (V m c main_arg5) (iblk m c 6 t) (V m c main_arg6) (iblk m c 7 t) (V m c main_arg7)
    (iblk m c 8 t) (V m c main_arg8) (iblk m c 9 t) (V m c main_arg9) (iblk m c 10 t) (V m c main_arg10) p (row t p)
    (iblk0_apply m c t p) (iblk1_apply m c t p) (iblk2_eq m c t) (iblk3_eq m c t) (iblk4_eq m c t) (iblk5_eq m c t)
    (iblk6_eq m c t) (iblk7_eq m c t) (iblk8_eq m c t) (iblk9_eq m c t) (iblk10_eq m c t) l e

/-- Every index of the output-row array is in some point's block: batch row `n` in the block of point `n / 32`. -/
theorem cover11 (i : S1024x64x256.Idx) :
    ∃ t : Fin cfg0.N, (cfg0.win 11).flush t = true ∧ i ∈ ((cfg0.win 11).blk t).view.set := by
  obtain ⟨n, l, e, rfl⟩ : ∃ (n : Fin 1024) (l : Fin 64) (e : Fin 256), i = ix3 n l e :=
    ⟨i 0, i 1, i 2, eq_ix3 (n0 := 1024) (n1 := 64) (n2 := 256) i⟩
  have hlt : n.val / 32 < cfg0.N := by rw [N_eq]; omega
  have hmem := ((cfg0.win 11).blk ⟨n.val / 32, hlt⟩).view.emb_mem_set
    (ix3 (⟨n.val % 32, Nat.mod_lt _ (by omega)⟩ : Fin 32) l e)
  rw [emb11, row_div_mod] at hmem
  exact ⟨⟨n.val / 32, hlt⟩, flush0_11 _, hmem⟩

/-- The output-row array after the run is `outG` of the argument arrays. -/
theorem final11 (c : Dev nD) (h11 : ∀ (x0 : Vec Ideal S32x64x256 .f32) (x1 : Vec Ideal S32x64x64 .f32) (x2 : Vec Ideal S256x256 .f32) (x3 : Vec Ideal S256 .f32) (x4 : Vec Ideal S256x256 .f32) (x5 : Vec Ideal S256 .f32) (x6 : Vec Ideal S256x256 .f32) (x7 : Vec Ideal S256 .f32) (x8 : Vec Ideal S256x256 .f32) (x9 : Vec Ideal S256 .f32) (x10 : Vec Ideal S1x8x64x64 .f32) (p : Fin 32) (l : Fin 64) (e : Fin 256),
        out0_11 (F := Ideal) x0 x1 x2 x3 x4 x5 x6 x7 x8 x9 x10 (ix3 p l e)
          = Cert.Attn.outArr x0 x1 x2 x3 x4 x5 x6 x7 x8 x9 x10 (ix3 p l e)) :
    (dats m 0 c).arrAt 11 cfg0.N
      = Cert.Attn.outArr (V m c main_arg0) (V m c main_arg1) (V m c main_arg2) (V m c main_arg3) (V m c main_arg4)
          (V m c main_arg5) (V m c main_arg6) (V m c main_arg7) (V m c main_arg8) (V m c main_arg9)
          (V m c main_arg10) :=
  (dats m 0 c).arrAt_eq_of_cover 11 (outG m c) (fun t _ => flushed11_eq m h11 c t) cover11

end Cert.Attn.Blocks

end
-- ==== Proof.BlocksRun.lean ====
/-
  The kernel's run with both output arrays read as functions of the argument arrays.

  The generated run names each output array after the run; the two modules before this one say what those arrays
  hold, given what the body leaves in each output block as a function of its input blocks. Put together: the run's
  post over the arguments as launched.
-/
import proofs.«100361_j80771154969227_1_alg».proof.Proof.Gen.KernelIdeal.Value
import proofs.«100361_j80771154969227_1_alg».proof.Proof.Spec
import proofs.«100361_j80771154969227_1_alg».proof.Proof.BlocksAtt
import proofs.«100361_j80771154969227_1_alg».proof.Proof.BlocksOut

noncomputable section

namespace Cert.Attn.Blocks

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The run, read -/

/-- The kernel's run: the output-row array and the attention array each at its function of the argument arrays as
    launched, the arguments unchanged — given what the body leaves in each output block as a function of its input
    blocks. -/
theorem run (h11 : ∀ (x0 : Vec Ideal S32x64x256 .f32) (x1 : Vec Ideal S32x64x64 .f32) (x2 : Vec Ideal S256x256 .f32) (x3 : Vec Ideal S256 .f32) (x4 : Vec Ideal S256x256 .f32) (x5 : Vec Ideal S256 .f32) (x6 : Vec Ideal S256x256 .f32) (x7 : Vec Ideal S256 .f32) (x8 : Vec Ideal S256x256 .f32) (x9 : Vec Ideal S256 .f32) (x10 : Vec Ideal S1x8x64x64 .f32) (p : Fin 32) (l : Fin 64) (e : Fin 256),
        out0_11 (F := Ideal) x0 x1 x2 x3 x4 x5 x6 x7 x8 x9 x10 (ix3 p l e)
          = Cert.Attn.outArr x0 x1 x2 x3 x4 x5 x6 x7 x8 x9 x10 (ix3 p l e))
    (h12 : ∀ (x0 : Vec Ideal S32x64x256 .f32) (x1 : Vec Ideal S32x64x64 .f32) (x2 : Vec Ideal S256x256 .f32) (x3 : Vec Ideal S256 .f32) (x4 : Vec Ideal S256x256 .f32) (x5 : Vec Ideal S256 .f32) (x6 : Vec Ideal S256x256 .f32) (x7 : Vec Ideal S256 .f32) (x8 : Vec Ideal S256x256 .f32) (x9 : Vec Ideal S256 .f32) (x10 : Vec Ideal S1x8x64x64 .f32) (p : Fin 32) (h : Fin 8) (q k : Fin 64),
        out0_12 (F := Ideal) x0 x1 x2 x3 x4 x5 x6 x7 x8 x9 x10 (ix4 p h q k)
          = Cert.Attn.attArr x0 x1 x2 x3 x4 x5 x10 (ix4 p h q k)) :
    θ_run defs (onTc (τ := τ) (main (F := Ideal))) ⟨m, fun _ => 0, ρ⟩ fun r => ∀ c : Dev nD,
      r.2.mem ((c : Thread nD τ).loc main_v0_0)
        = Cert.Attn.outArr (B := 1024) (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6)) (m ((c : Thread nD τ).loc main_arg7))
            (m ((c : Thread nD τ).loc main_arg8)) (m ((c : Thread nD τ).loc main_arg9))
            (m ((c : Thread nD τ).loc main_arg10))
      ∧ r.2.mem ((c : Thread nD τ).loc main_v0_1)
        = Cert.Attn.attArr (B := 1024) (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono
    (fun r h c => ⟨(h c).1.trans (final11 m c h11), (h c).2.1.trans (final12 m c h12), (h c).2.2⟩)
    (Value.run_blocks m ρ)

end Cert.Attn.Blocks

end
-- ==== Proof.RefProj.lean ====
/-
  The three projections of the reference, read at (batch element n, head h, agent l, lane d).

  Each is the affine map of agent l's features, written [n, l, e], re-cut [n, l, h, d] with e = 32·h + d, and transposed
  to [n, h, l, d]. Row-major arithmetic identifies the re-cut: the flat position ((n·64 + l)·8 + h)·32 + d of
  (n, l, h, d) is position (n·64 + l)·256 + (32·h + d) of (n, l, 32·h + d).
-/
import proofs.«100361_j80771154969227_1_alg».proof.Proof.Gen.ReferenceIdeal.Read
import proofs.«100361_j80771154969227_1_alg».proof.Proof.Spec

noncomputable section

namespace Cert.Attn.Ref

open Idealize.ShloMosaic Idealize.ShloMosaic.ValueIdx Cert.ReferenceIdeal Cert.ReferenceIdeal.Read

/-- The re-cut and transposed index (n, h, l, d) comes from (n, l, 32·h + d). -/
theorem idx_heads (n : Fin 1024) (h : Fin 8) (l : Fin 64) (d : Fin 32) :
    idx_main_v4 (idx_main_v5 (ix4 n h l d)) = ix3 n l (col h d) := by
  have hn := n.isLt; have hh := h.isLt; have hl := l.isLt; have hd := d.isLt
  funext a; apply Fin.ext
  match a with
  | ⟨0, _⟩ => show (((n.val * 64 + l.val) * 8 + h.val) * 32 + d.val) / 16384 = n.val; omega
  | ⟨1, _⟩ => show (((n.val * 64 + l.val) * 8 + h.val) * 32 + d.val) / 256 % 64 = l.val; omega
  | ⟨2, _⟩ => show (((n.val * 64 + l.val) * 8 + h.val) * 32 + d.val) % 256 = h.val * 32 + d.val; omega

theorem lidx_lin (n : Fin 1024) (l : Fin 64) (e k : Fin 256) : lidx_main_v0 (ix3 n l e) k = ix3 n l k :=
  funext fun a => Fin.ext (by match a with | ⟨0, _⟩ => rfl | ⟨1, _⟩ => rfl | ⟨2, _⟩ => rfl)

theorem ridx_lin (n : Fin 1024) (l : Fin 64) (e k : Fin 256) : ridx_main_v0 (ix3 n l e) k = ix2 e k :=
  funext fun a => Fin.ext (by match a with | ⟨0, _⟩ => rfl | ⟨1, _⟩ => rfl)

theorem bidx_lin (n : Fin 1024) (l : Fin 64) (e : Fin 256) : idx_main_v1 (idx_main_v2 (ix3 n l e)) = ix1 e :=
  funext fun a => Fin.ext (by match a with | ⟨0, _⟩ => rfl)

/-- The first projection at (n, h, l, d) is the affine map of agent l at feature column 32·h + d. -/
theorem proj_heads (x0 : (⟨S1024x64x256, .f32⟩ : BufTy).Contents (Elt Ideal)) (x2 : (⟨S256x256, .f32⟩ : BufTy).Contents (Elt Ideal))
    (x3 : (⟨S256, .f32⟩ : BufTy).Contents (Elt Ideal)) (n : Fin 1024) (h : Fin 8) (l : Fin 64) (d : Fin 32) :
    val_main_v5 (F := Ideal) x0 x2 x3 (ix4 n h l d)
      = lin (fun l d => x0 (ix3 n l d)) (fun e d => x2 (ix2 e d)) (fun e => x3 (ix1 e)) l (col h d) := by
  rw [val_main_v5_apply, val_main_v4_apply, idx_heads, val_main_v3_apply, val_main_v0_apply, val_main_v2_apply,
    val_main_v1_apply, bidx_lin]
  simp only [lidx_lin, ridx_lin, Ideal.addf_def]
  rfl

/-- The second and third projections are the same term with other weights. -/
theorem proj_heads_k (x0 : (⟨S1024x64x256, .f32⟩ : BufTy).Contents (Elt Ideal)) (x4 : (⟨S256x256, .f32⟩ : BufTy).Contents (Elt Ideal))
    (x5 : (⟨S256, .f32⟩ : BufTy).Contents (Elt Ideal)) (n : Fin 1024) (h : Fin 8) (l : Fin 64) (d : Fin 32) :
    val_main_v11 (F := Ideal) x0 x4 x5 (ix4 n h l d)
      = lin (fun l d => x0 (ix3 n l d)) (fun e d => x4 (ix2 e d)) (fun e => x5 (ix1 e)) l (col h d) :=
  proj_heads x0 x4 x5 n h l d

theorem proj_heads_v (x0 : (⟨S1024x64x256, .f32⟩ : BufTy).Contents (Elt Ideal)) (x6 : (⟨S256x256, .f32⟩ : BufTy).Contents (Elt Ideal))
    (x7 : (⟨S256, .f32⟩ : BufTy).Contents (Elt Ideal)) (n : Fin 1024) (h : Fin 8) (l : Fin 64) (d : Fin 32) :
    val_main_v17 (F := Ideal) x0 x6 x7 (ix4 n h l d)
      = lin (fun l d => x0 (ix3 n l d)) (fun e d => x6 (ix2 e d)) (fun e => x7 (ix1 e)) l (col h d) :=
  proj_heads x0 x6 x7 n h l d

end Cert.Attn.Ref

end
-- ==== Proof.RefLogit.lean ====
/-
  The logit of the reference at (batch element n, head h, query q, key k).

  The reference spells the logistic function out as 1 / (1 + exp (-x)) with the literal one; the word 0x3F800000 is the
  real number 1 (sign 0, biased exponent 127, mantissa 0), so that quotient is the logistic function of the
  specification. The scale and the offset inside the logarithm stay the words both programs carry.
-/
import proofs.«100361_j80771154969227_1_alg».proof.Proof.Gen.ReferenceIdeal.Read
import proofs.«100361_j80771154969227_1_alg».proof.Proof.Spec
import proofs.«100361_j80771154969227_1_alg».proof.Proof.RefProj

noncomputable section

namespace Cert.Attn.Ref

open Idealize.ShloMosaic Idealize.ShloMosaic.ValueIdx Cert.ReferenceIdeal Cert.ReferenceIdeal.Read

/-- The word 0x3F800000 is the number one. -/
theorem one_word : Ideal.ofBits .f32 0x3F800000#32 = 1 := by
  simp [Ideal.ofBits, Ideal.ieee, -EReal.coe_mul]; norm_num

/-- The mask of the reference, 1 / (1 + exp (-x)), is the logistic function of the mask logit. -/
theorem gate_eq (x10 : (⟨S1x8x64x64, .f32⟩ : BufTy).Contents (Elt Ideal)) (j : S1x8x64x64.Idx) :
    val_main_v26 (F := Ideal) x10 j = Ideal.logistic (x10 j) := by
  rw [val_main_v26_apply, val_main_v25_apply, val_main_cst_1_apply, val_main_v24_apply, val_main_v23_apply,
    val_main_cst_0_apply, val_main_v22_apply, val_main_v21_apply]
  simp only [Ideal.hostDivf_def, Ideal.addf_def, Ideal.hostUnary_exp_def, Ideal.hostNegf_def, Ideal.negf_def,
    Ideal.ofBits_def, one_word]
  rfl

theorem idx_mask (n : Fin 1024) (h : Fin 8) (q k : Fin 64) : idx_main_v27 (ix4 n h q k) = ix4 0 h q k :=
  funext fun a => Fin.ext (by match a with | ⟨0, _⟩ => rfl | ⟨1, _⟩ => rfl | ⟨2, _⟩ => rfl | ⟨3, _⟩ => rfl)

theorem idx_logmask (n : Fin 1024) (h : Fin 8) (q k : Fin 64) : idx_main_v32 (ix4 n h q k) = ix4 0 h q k :=
  funext fun a => Fin.ext (by match a with | ⟨0, _⟩ => rfl | ⟨1, _⟩ => rfl | ⟨2, _⟩ => rfl | ⟨3, _⟩ => rfl)

theorem idx_graph (n : Fin 1024) (h : Fin 8) (q k : Fin 64) : idx_main_v34 (idx_main_v35 (ix4 n h q k)) = ix3 n q k :=
  funext fun a => Fin.ext (by match a with | ⟨0, _⟩ => rfl | ⟨1, _⟩ => rfl | ⟨2, _⟩ => rfl)

theorem lidx_score (n : Fin 1024) (h : Fin 8) (q k : Fin 64) (d : Fin 32) : lidx_main_v18 (ix4 n h q k) d = ix4 n h q d :=
  funext fun a => Fin.ext (by match a with | ⟨0, _⟩ => rfl | ⟨1, _⟩ => rfl | ⟨2, _⟩ => rfl | ⟨3, _⟩ => rfl)

theorem ridx_score (n : Fin 1024) (h : Fin 8) (q k : Fin 64) (d : Fin 32) : ridx_main_v18 (ix4 n h q k) d = ix4 n h k d :=
  funext fun a => Fin.ext (by match a with | ⟨0, _⟩ => rfl | ⟨1, _⟩ => rfl | ⟨2, _⟩ => rfl | ⟨3, _⟩ => rfl)

/-- The scaled score of the reference. -/
theorem score_eq (x0 : (⟨S1024x64x256, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (n : Fin 1024) (h : Fin 8) (q k : Fin 64) :
    val_main_v20 (F := Ideal) x0 x2 x3 x4 x5 (ix4 n h q k)
      = score (fun l d => x0 (ix3 n l d)) (fun e d => x2 (ix2 e d)) (fun e => x3 (ix1 e)) (fun e d => x4 (ix2 e d)) (fun e => x5 (ix1 e)) h q k := by
  rw [val_main_v20_apply, val_main_v18_apply, val_main_v19_apply, val_main_cst_apply]
  simp only [lidx_score, ridx_score, proj_heads, proj_heads_k, Ideal.mulf_def, Ideal.ofBits_def]
  rfl

/-- The logit of the reference: masked score plus the logarithm of the mask, times the graph entry. -/
theorem logit_eq (x0 : (⟨S1024x64x256, .f32⟩ : BufTy).Contents (Elt Ideal)) (x1 : (⟨S1024x64x64, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x10 : (⟨S1x8x64x64, .f32⟩ : BufTy).Contents (Elt Ideal)) (n : Fin 1024) (h : Fin 8) (q k : Fin 64) :
    val_main_v36 (F := Ideal) x0 x1 x2 x3 x4 x5 x10 (ix4 n h q k)
      = logit (fun l d => x0 (ix3 n l d)) (fun q k => x1 (ix3 n q k)) (fun e d => x2 (ix2 e d)) (fun e => x3 (ix1 e)) (fun e d => x4 (ix2 e d)) (fun e => x5 (ix1 e)) (fun h q k => x10 (ix4 0 h q k)) h q k := by
  rw [val_main_v36_apply, val_main_v33_apply, val_main_v28_apply, score_eq, val_main_v27_apply, idx_mask, gate_eq,
    val_main_v32_apply, idx_logmask, val_main_v31_apply, val_main_v30_apply, gate_eq, val_main_v29_apply,
    val_main_cst_2_apply, val_main_v35_apply, val_main_v34_apply, idx_graph]
  simp only [Ideal.mulf_def, Ideal.addf_def, Ideal.hostUnary_log_def, Ideal.ofBits_def]
  rfl

end Cert.Attn.Ref

end
-- ==== Proof.RefAtt.lean ====
/-
  The attention weights of the reference at (batch element n, head h, query q, key k).

  The row maximum is a reduction with a maximum body over the key axis from the word of -∞, joined once more with that
  word; maximum is commutative and associative, so the reduction is the fold of max over the 64 keys. The
  denominator is the sum over the keys from the zero word, which is the number zero.
-/
import proofs.«100361_j80771154969227_1_alg».proof.Proof.Gen.ReferenceIdeal.Read
import proofs.«100361_j80771154969227_1_alg».proof.Proof.Spec
import proofs.«100361_j80771154969227_1_alg».proof.Proof.RefLogit

noncomputable section

namespace Cert.Attn.Ref

open Idealize.ShloMosaic Idealize.ShloMosaic.ValueIdx Cert.ReferenceIdeal Cert.ReferenceIdeal.Gen Cert.ReferenceIdeal.Read

/-- Dropping the key axis of [1024, 8, 64, 64] leaves [1024, 8, 64]. -/
theorem keys_dropped : S1024x8x64x64.Reduces [3] S1024x8x64 := by decide

/-- The row (n, h, q) with key k put back is (n, h, q, k). -/
theorem lift_row (n : Fin 1024) (h : Fin 8) (q : Fin 64) (k : Fin (S1024x8x64x64.size 3)) :
    keys_dropped.lift (ix3 n h q) k = ix4 n h q (⟨k.val, k.isLt⟩ : Fin 64) := by
  funext c; apply Fin.ext
  fin_cases c <;> rfl

/-- The row maximum of the reference: the fold of max over the keys from -∞, joined with -∞. -/
theorem rowmax_eq (x0 : (⟨S1024x64x256, .f32⟩ : BufTy).Contents (Elt Ideal)) (x1 : (⟨S1024x64x64, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x10 : (⟨S1x8x64x64, .f32⟩ : BufTy).Contents (Elt Ideal)) (n : Fin 1024) (h : Fin 8) (q : Fin 64) :
    val_main_v39 (F := Ideal) x0 x1 x2 x3 x4 x5 x10 (ix3 n h q) = rowMax (fun l d => x0 (ix3 n l d)) (fun q k => x1 (ix3 n q k)) (fun e d => x2 (ix2 e d)) (fun e => x3 (ix1 e)) (fun e d => x4 (ix2 e d)) (fun e => x5 (ix1 e)) (fun h q k => x10 (ix4 0 h q k)) h q := by
  rw [val_main_v39_apply, val_main_v38_apply, val_main_cst_4_apply]
  unfold val_main_v37
  rw [Host.reduce_eq_fold_single (FloatOps.maximumf (F := Ideal) (φ := .f32)) (val_main_v36 (F := Ideal) x0 x1 x2 x3 x4 x5 x10) _
    reducesTo_S1024x8x64x64_S1024x8x64_d3 keys_dropped h_S_]
  have hf : ((val_main_v36 (F := Ideal) x0 x1 x2 x3 x4 x5 x10) ∘ keys_dropped.lift (ix3 n h q))
      = fun k : Fin 64 => logit (fun l d => x0 (ix3 n l d)) (fun q k => x1 (ix3 n q k)) (fun e d => x2 (ix2 e d)) (fun e => x3 (ix1 e)) (fun e d => x4 (ix2 e d)) (fun e => x5 (ix1 e)) (fun h q k => x10 (ix4 0 h q k)) h q k :=
    funext fun k => by
      show val_main_v36 (F := Ideal) x0 x1 x2 x3 x4 x5 x10 (keys_dropped.lift (ix3 n h q) k) = _
      rw [lift_row, logit_eq]
      rfl
  show max negInfC (Finset.fold max negInfC ((val_main_v36 (F := Ideal) x0 x1 x2 x3 x4 x5 x10) ∘ keys_dropped.lift (ix3 n h q)) (Finset.univ : Finset (Fin 64)))
    = max negInfC (Finset.fold max negInfC (fun k : Fin 64 => logit (fun l d => x0 (ix3 n l d)) (fun q k => x1 (ix3 n q k)) (fun e d => x2 (ix2 e d)) (fun e => x3 (ix1 e)) (fun e d => x4 (ix2 e d)) (fun e => x5 (ix1 e)) (fun h q k => x10 (ix4 0 h q k)) h q k) Finset.univ)
  rw [hf]
  rfl

theorem idx_row (n : Fin 1024) (h : Fin 8) (q k : Fin 64) : idx_main_v40 (idx_main_v41 (ix4 n h q k)) = ix3 n h q :=
  funext fun a => Fin.ext (by match a with | ⟨0, _⟩ => rfl | ⟨1, _⟩ => rfl | ⟨2, _⟩ => rfl)

theorem idx_row_den (n : Fin 1024) (h : Fin 8) (q k : Fin 64) : idx_main_v45 (idx_main_v46 (ix4 n h q k)) = ix3 n h q :=
  funext fun a => Fin.ext (by match a with | ⟨0, _⟩ => rfl | ⟨1, _⟩ => rfl | ⟨2, _⟩ => rfl)

theorem idx_keys (n : Fin 1024) (h : Fin 8) (q k : Fin 64) : idx_main_v44 (ix3 n h q) k = ix4 n h q k :=
  funext fun a => Fin.ext (by match a with | ⟨0, _⟩ => rfl | ⟨1, _⟩ => rfl | ⟨2, _⟩ => rfl | ⟨3, _⟩ => rfl)

/-- The exponential of the logit less its row maximum. -/
theorem expo_eq (x0 : (⟨S1024x64x256, .f32⟩ : BufTy).Contents (Elt Ideal)) (x1 : (⟨S1024x64x64, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x10 : (⟨S1x8x64x64, .f32⟩ : BufTy).Contents (Elt Ideal)) (n : Fin 1024) (h : Fin 8) (q k : Fin 64) :
    val_main_v43 (F := Ideal) x0 x1 x2 x3 x4 x5 x10 (ix4 n h q k) = expo (fun l d => x0 (ix3 n l d)) (fun q k => x1 (ix3 n q k)) (fun e d => x2 (ix2 e d)) (fun e => x3 (ix1 e)) (fun e d => x4 (ix2 e d)) (fun e => x5 (ix1 e)) (fun h q k => x10 (ix4 0 h q k)) h q k := by
  rw [val_main_v43_apply, val_main_v42_apply, logit_eq, val_main_v41_apply, val_main_v40_apply, idx_row, rowmax_eq]
  simp only [Ideal.hostUnary_exp_def, Ideal.subf_def]
  rfl

/-- The softmax denominator: the sum of the exponentials over the keys, from zero. -/
theorem denom_eq (x0 : (⟨S1024x64x256, .f32⟩ : BufTy).Contents (Elt Ideal)) (x1 : (⟨S1024x64x64, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x10 : (⟨S1x8x64x64, .f32⟩ : BufTy).Contents (Elt Ideal)) (n : Fin 1024) (h : Fin 8) (q : Fin 64) :
    val_main_v44 (F := Ideal) x0 x1 x2 x3 x4 x5 x10 (ix3 n h q) = denom (fun l d => x0 (ix3 n l d)) (fun q k => x1 (ix3 n q k)) (fun e d => x2 (ix2 e d)) (fun e => x3 (ix1 e)) (fun e d => x4 (ix2 e d)) (fun e => x5 (ix1 e)) (fun h q k => x10 (ix4 0 h q k)) h q := by
  rw [val_main_v44_apply, val_main_cst_5_apply]
  simp only [idx_keys, expo_eq, Ideal.ofBits_def, Ideal.ofBits_zero_f32, zero_add]
  rfl

/-- The attention weight. -/
theorem att_eq (x0 : (⟨S1024x64x256, .f32⟩ : BufTy).Contents (Elt Ideal)) (x1 : (⟨S1024x64x64, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x10 : (⟨S1x8x64x64, .f32⟩ : BufTy).Contents (Elt Ideal)) (n : Fin 1024) (h : Fin 8) (q k : Fin 64) :
    val_main_v47 (F := Ideal) x0 x1 x2 x3 x4 x5 x10 (ix4 n h q k) = att (fun l d => x0 (ix3 n l d)) (fun q k => x1 (ix3 n q k)) (fun e d => x2 (ix2 e d)) (fun e => x3 (ix1 e)) (fun e d => x4 (ix2 e d)) (fun e => x5 (ix1 e)) (fun h q k => x10 (ix4 0 h q k)) h q k := by
  rw [val_main_v47_apply, expo_eq, val_main_v46_apply, val_main_v45_apply, idx_row_den, denom_eq]
  rfl

/-- The second result of the reference is the attention weights of the specification. -/
theorem ref_att (x0 : (⟨S1024x64x256, .f32⟩ : BufTy).Contents (Elt Ideal)) (x1 : (⟨S1024x64x64, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x10 : (⟨S1x8x64x64, .f32⟩ : BufTy).Contents (Elt Ideal)) :
    val_main_v47 (F := Ideal) x0 x1 x2 x3 x4 x5 x10 = Cert.Attn.attArr x0 x1 x2 x3 x4 x5 x10 := by
  funext i
  obtain ⟨n, h, q, k, rfl⟩ : ∃ (n : Fin 1024) (h : Fin 8) (q k : Fin 64), i = ix4 n h q k := ⟨i 0, i 1, i 2, i 3, eq_ix4 i⟩
  exact att_eq x0 x1 x2 x3 x4 x5 x10 n h q k

end Cert.Attn.Ref

end
-- ==== Proof.RefOut.lean ====
/-
  The output rows of the reference at (batch element n, agent l, feature e).

  Head h of the mixed values is the sum over the keys of the attention weight times the value projection; the heads
  [n, h, l, d] are transposed to [n, l, h, d] and laid side by side along the feature axis, so feature e of agent l
  is lane e mod 32 of head e div 32: the flat position (n·64 + l)·256 + e of (n, l, e) is position
  ((n·64 + l)·8 + e div 32)·32 + e mod 32. The last affine map is then read as the first three were.
-/
import proofs.«100361_j80771154969227_1_alg».proof.Proof.Gen.ReferenceIdeal.Read
import proofs.«100361_j80771154969227_1_alg».proof.Proof.Spec
import proofs.«100361_j80771154969227_1_alg».proof.Proof.RefAtt

noncomputable section

namespace Cert.Attn.Ref

open Idealize.ShloMosaic Idealize.ShloMosaic.ValueIdx Cert.ReferenceIdeal Cert.ReferenceIdeal.Gen Cert.ReferenceIdeal.Read

theorem lidx_mix (n : Fin 1024) (h : Fin 8) (q : Fin 64) (d : Fin 32) (k : Fin 64) : lidx_main_v48 (ix4 n h q d) k = ix4 n h q k :=
  funext fun a => Fin.ext (by match a with | ⟨0, _⟩ => rfl | ⟨1, _⟩ => rfl | ⟨2, _⟩ => rfl | ⟨3, _⟩ => rfl)

theorem ridx_mix (n : Fin 1024) (h : Fin 8) (q : Fin 64) (d : Fin 32) (k : Fin 64) : ridx_main_v48 (ix4 n h q d) k = ix4 n h k d :=
  funext fun a => Fin.ext (by match a with | ⟨0, _⟩ => rfl | ⟨1, _⟩ => rfl | ⟨2, _⟩ => rfl | ⟨3, _⟩ => rfl)

/-- Head h of the mixed values at (n, h, q, d). -/
theorem mixhead_eq (x0 : (⟨S1024x64x256, .f32⟩ : BufTy).Contents (Elt Ideal)) (x1 : (⟨S1024x64x64, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x10 : (⟨S1x8x64x64, .f32⟩ : BufTy).Contents (Elt Ideal)) (n : Fin 1024) (h : Fin 8) (q : Fin 64) (d : Fin 32) :
    val_main_v48 (F := Ideal) x0 x1 x2 x3 x4 x5 x6 x7 x10 (ix4 n h q d) = mixHead (fun l d => x0 (ix3 n l d)) (fun q k => x1 (ix3 n q k)) (fun e d => x2 (ix2 e d)) (fun e => x3 (ix1 e)) (fun e d => x4 (ix2 e d)) (fun e => x5 (ix1 e)) (fun e d => x6 (ix2 e d)) (fun e => x7 (ix1 e)) (fun h q k => x10 (ix4 0 h q k)) h q d := by
  rw [val_main_v48_apply]
  simp only [lidx_mix, ridx_mix, att_eq, proj_heads_v]
  rfl

/-- Feature e of agent l comes from lane e mod 32 of head e div 32. -/
theorem idx_merge (n : Fin 1024) (l : Fin 64) (e : Fin 256) :
    idx_main_v49 (idx_main_v50 (ix3 n l e)) = ix4 n (headOf e) l (laneOf e) := by
  have hn := n.isLt; have hl := l.isLt; have he := e.isLt
  funext a; apply Fin.ext
  match a with
  | ⟨0, _⟩ => show ((n.val * 64 + l.val) * 256 + e.val) / 16384 = n.val; omega
  | ⟨1, _⟩ => show ((n.val * 64 + l.val) * 256 + e.val) / 32 % 8 = e.val / 32; omega
  | ⟨2, _⟩ => show ((n.val * 64 + l.val) * 256 + e.val) / 256 % 64 = l.val; omega
  | ⟨3, _⟩ => show ((n.val * 64 + l.val) * 256 + e.val) % 32 = e.val % 32; omega

/-- The heads side by side. -/
theorem mix_eq (x0 : (⟨S1024x64x256, .f32⟩ : BufTy).Contents (Elt Ideal)) (x1 : (⟨S1024x64x64, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x10 : (⟨S1x8x64x64, .f32⟩ : BufTy).Contents (Elt Ideal)) (n : Fin 1024) (l : Fin 64) (e : Fin 256) :
    val_main_v50 (F := Ideal) x0 x1 x2 x3 x4 x5 x6 x7 x10 (ix3 n l e) = mix (fun l d => x0 (ix3 n l d)) (fun q k => x1 (ix3 n q k)) (fun e d => x2 (ix2 e d)) (fun e => x3 (ix1 e)) (fun e d => x4 (ix2 e d)) (fun e => x5 (ix1 e)) (fun e d => x6 (ix2 e d)) (fun e => x7 (ix1 e)) (fun h q k => x10 (ix4 0 h q k)) l e := by
  rw [val_main_v50_apply, val_main_v49_apply, idx_merge, mixhead_eq]
  rfl

theorem lidx_out (n : Fin 1024) (l : Fin 64) (e d : Fin 256) : lidx_main_v51 (ix3 n l e) d = ix3 n l d :=
  funext fun a => Fin.ext (by match a with | ⟨0, _⟩ => rfl | ⟨1, _⟩ => rfl | ⟨2, _⟩ => rfl)

theorem ridx_out (n : Fin 1024) (l : Fin 64) (e d : Fin 256) : ridx_main_v51 (ix3 n l e) d = ix2 e d :=
  funext fun a => Fin.ext (by match a with | ⟨0, _⟩ => rfl | ⟨1, _⟩ => rfl)

theorem bidx_out (n : Fin 1024) (l : Fin 64) (e : Fin 256) : idx_main_v52 (idx_main_v53 (ix3 n l e)) = ix1 e :=
  funext fun a => Fin.ext (by match a with | ⟨0, _⟩ => rfl)

/-- The output row. -/
theorem out_eq (x0 : (⟨S1024x64x256, .f32⟩ : BufTy).Contents (Elt Ideal)) (x1 : (⟨S1024x64x64, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S1x8x64x64, .f32⟩ : BufTy).Contents (Elt Ideal)) (n : Fin 1024) (l : Fin 64) (e : Fin 256) :
    val_main_v54 (F := Ideal) x0 x1 x2 x3 x4 x5 x6 x7 x8 x9 x10 (ix3 n l e) = outRow (fun l d => x0 (ix3 n l d)) (fun q k => x1 (ix3 n q k)) (fun e d => x2 (ix2 e d)) (fun e => x3 (ix1 e)) (fun e d => x4 (ix2 e d)) (fun e => x5 (ix1 e)) (fun e d => x6 (ix2 e d)) (fun e => x7 (ix1 e)) (fun e d => x8 (ix2 e d)) (fun e => x9 (ix1 e)) (fun h q k => x10 (ix4 0 h q k)) l e := by
  rw [val_main_v54_apply, val_main_v51_apply, val_main_v53_apply, val_main_v52_apply, bidx_out]
  simp only [lidx_out, ridx_out, mix_eq, Ideal.addf_def]
  rfl

/-- The first result of the reference is the output rows of the specification. -/
theorem ref_out (x0 : (⟨S1024x64x256, .f32⟩ : BufTy).Contents (Elt Ideal)) (x1 : (⟨S1024x64x64, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S1x8x64x64, .f32⟩ : BufTy).Contents (Elt Ideal)) :
    val_main_v54 (F := Ideal) x0 x1 x2 x3 x4 x5 x6 x7 x8 x9 x10 = Cert.Attn.outArr x0 x1 x2 x3 x4 x5 x6 x7 x8 x9 x10 := by
  funext i
  obtain ⟨n, l, e, rfl⟩ : ∃ (n : Fin 1024) (l : Fin 64) (e : Fin 256), i = ix3 n l e := ⟨i 0, i 1, i 2, eq_ix3 i⟩
  exact out_eq x0 x1 x2 x3 x4 x5 x6 x7 x8 x9 x10 n l e

end Cert.Attn.Ref

end
-- ==== Proof.lean ====
/-
  The proof of `Cert.Claim`: a self-attention layer with a learned sigmoid mask and a graph gate,
  computed by a kernel on blocks of 32 batch elements, against the same layer written with einsums.

  Per batch element (64 agents, 256 features, 8 heads of 32 lanes) both programs compute, in the same
  order of operations: three affine maps (queries, keys, values); per head the scaled scores, times the
  logistic of the mask logits, plus the logarithm of that logistic shifted by ε, times the graph gate;
  the softmax of these logits along the keys; the attention-weighted values; and a fourth affine map of
  the heads laid side by side. The results are the output rows, the attention weights, and the mask
  logits handed back unchanged. Proof/Spec.lean states this function once over plain coordinates.

  * The kernel's side: the eight heads of the body are one composition of three block functions
    (Proof/KHeads.lean), each read at one element (KMat, KProj, KSoft, KBlock), so each block the body
    leaves is the specification at the block's batch elements (KOut); the blocks tile the arrays
    (Blocks*), so the two result arrays are the specification's whole-array functions of the arguments.
  * The reference's side: its run is generated; read one operation at a time (Ref*), its two computed
    results are the same whole-array functions. The one spelling difference is the logistic function,
    one operation in the kernel and 1 / (1 + exp (-x)) in the reference: over the extended reals these
    are one function by definition.
  No algebraic law and no finiteness of the inputs is used: every sum is taken over the same index set
  in the same arrangement on both sides. The idealization rewrote nothing, so `preserves` is trivial;
  the two kernels' frames are the generated ones and the reference's frame is its generated run with the
  results forgotten.
-/
import proofs.«100361_j80771154969227_1_alg».proof.Defs
import proofs.«100361_j80771154969227_1_alg».proof.Proof.Gen.Kernel
import proofs.«100361_j80771154969227_1_alg».proof.Proof.Gen.Kernel.Skeleton
import proofs.«100361_j80771154969227_1_alg».proof.Proof.Gen.Kernel.Launch
import proofs.«100361_j80771154969227_1_alg».proof.Proof.Gen.Kernel.Points
import proofs.«100361_j80771154969227_1_alg».proof.Proof.Gen.Kernel.Frame
import proofs.«100361_j80771154969227_1_alg».proof.Proof.Gen.KernelIdeal
import proofs.«100361_j80771154969227_1_alg».proof.Proof.Gen.KernelIdeal.Skeleton
import proofs.«100361_j80771154969227_1_alg».proof.Proof.Gen.KernelIdeal.Launch
import proofs.«100361_j80771154969227_1_alg».proof.Proof.Gen.KernelIdeal.Points
import proofs.«100361_j80771154969227_1_alg».proof.Proof.Gen.KernelIdeal.Frame
import proofs.«100361_j80771154969227_1_alg».proof.Proof.Gen.ReferenceIdeal
import proofs.«100361_j80771154969227_1_alg».proof.Proof.Gen.Pre_finite_inputs
import proofs.«100361_j80771154969227_1_alg».proof.Proof.Gen.KernelIdeal.Value
import proofs.«100361_j80771154969227_1_alg».proof.Proof.Gen.ReferenceIdeal.Run
import proofs.«100361_j80771154969227_1_alg».proof.Proof.Gen.ReferenceIdeal.Read
import proofs.«100361_j80771154969227_1_alg».proof.Proof.KOut
import proofs.«100361_j80771154969227_1_alg».proof.Proof.BlocksRun
import proofs.«100361_j80771154969227_1_alg».proof.Proof.RefOut
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its generated run, the three results forgotten. -/
theorem frame_ri : Cert.frame_ReferenceIdeal := fun m ρ _ =>
  (θ_run Cert.ReferenceIdeal.defs _ _).mono (fun _ h c => (h c).2.2.2) (Cert.ReferenceIdeal.Value.run (F := Ideal) m ρ)

/-- From memories agreeing on the eleven arguments both programs end with the output rows and the
    attention weights of the specification, and with the mask logits as they were. -/
theorem algebraic : Cert.algebraic_KernelIdeal_ReferenceIdeal := by
  intro m ρ m' ρ' _ hagree
  refine ⟨fun c => Cert.Attn.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Attn.attArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)),
    fun c => m ((c.tc : Thread Cert.KernelIdeal.nD Cert.KernelIdeal.τ).loc Cert.KernelIdeal.main_arg10), ?_, ?_⟩
  · exact (θ_run Cert.KernelIdeal.defs _ _).mono
      (fun r h c => ⟨(h c).1, (h c).2.1, (h c).2.2.2.2.2.2.2.2.2.2.2.2, (h c).2.2⟩)
      (Cert.Attn.Blocks.run m ρ Cert.Attn.K.out11_apply Cert.Attn.K.out12_apply)
  · refine (θ_run Cert.ReferenceIdeal.defs _ _).mono (fun r h c => ⟨?_, ?_, ?_, (h c).2.2.2⟩)
      (Cert.ReferenceIdeal.Value.run (F := Ideal) m' ρ')
    · rw [(h c).1, Cert.ReferenceIdeal.Read.val_main_v54_eq, Cert.Attn.Ref.ref_out,
        (hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1, (hagree c).2.2.2.2.2.2.2.2.2.1,
        (hagree c).2.2.2.2.2.2.2.2.2.2]
    · rw [(h c).2.1, Cert.ReferenceIdeal.Read.val_main_v47_eq, Cert.Attn.Ref.ref_att,
        (hagree c).1, (hagree c).2.1, (hagree c).2.2.1, (hagree c).2.2.2.1, (hagree c).2.2.2.2.1, (hagree c).2.2.2.2.2.1,
        (hagree c).2.2.2.2.2.2.2.2.2.2]
    · rw [(h c).2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
